-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x512 : Shape := ⟨4, ![8, 32, 32, 512]⟩
abbrev S512x512 : Shape := ⟨2, ![512, 512]⟩
abbrev S512 : Shape := ⟨1, ![512]⟩
abbrev S_ : Shape := ⟨0, ![]⟩

class Facts : Prop where
  bcast_S_S8x32x32x512 : S_.BroadcastsInDim S8x32x32x512 (![] : Fin 0 → Fin S8x32x32x512.rank)
  reducesTo_S8x32x32x512_S_d0_1_2_3 : S8x32x32x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x32x32x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8x32x32x512 .f32 := Host.absf main_arg0
  let main_cst : FVec F S_ .f32 := constant S_ .f32 0x7F800000#32
  let main_v1 : FVec F S8x32x32x512 .f32 := broadcastInDim S8x32x32x512 ![] bcast_S_S8x32x32x512 main_cst
  let main_v2 : IVec S8x32x32x512 1 := cmpf .olt main_v0 main_v1
  let main_c : IVec S_ 1 := constantI S_ 1 1#1
  let main_v3 : IVec S_ 1 := (fun x v => Host.reduce IntOp.andi x v reducesTo_S8x32x32x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x32x32x512 : Shape := ⟨4, ![8, 32, 32, 512]⟩
abbrev S512x512 : Shape := ⟨2, ![512, 512]⟩
abbrev S512 : Shape := ⟨1, ![512]⟩
abbrev S8x1024x512 : Shape := ⟨3, ![8, 1024, 512]⟩
abbrev S1x512 : Shape := ⟨2, ![1, 512]⟩
abbrev S8x1x512 : Shape := ⟨3, ![8, 1, 512]⟩
abbrev S1x1024x512 : Shape := ⟨3, ![1, 1024, 512]⟩
abbrev S1x1x512 : Shape := ⟨3, ![1, 1, 512]⟩
abbrev S1024x512 : Shape := ⟨2, ![1024, 512]⟩
abbrev S_ : Shape := ⟨0, ![]⟩
abbrev S8x512 : Shape := ⟨2, ![8, 512]⟩
abbrev S8 : Shape := ⟨1, ![8]⟩
abbrev S8x1x1 : Shape := ⟨3, ![8, 1, 1]⟩
abbrev S8x1x1024 : Shape := ⟨3, ![8, 1, 1024]⟩
abbrev S1x1x1 : Shape := ⟨3, ![1, 1, 1]⟩
abbrev S1x1x1024 : Shape := ⟨3, ![1, 1, 1024]⟩
abbrev S1x1 : Shape := ⟨2, ![1, 1]⟩
abbrev S1x1024 : Shape := ⟨2, ![1, 1024]⟩
abbrev S1 : Shape := ⟨1, ![1]⟩
abbrev S8x1024 : Shape := ⟨2, ![8, 1024]⟩

abbrev nBuf : Space → Nat
  | .hbm => 30
  | .vmem => 18
  | .smem => 0
  | _ => 0

abbrev bufTy : (tb : Table) → Fin (tcTables nBuf tb) → BufTy
  | .hbm, ⟨0, _⟩ => ⟨S8x32x32x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x1024x512, .f32⟩
  | .hbm, ⟨8, _⟩ => ⟨S512x512, .f32⟩
  | .hbm, ⟨9, _⟩ => ⟨S512x512, .f32⟩
  | .hbm, ⟨10, _⟩ => ⟨S1x512, .f32⟩
  | .hbm, ⟨11, _⟩ => ⟨S1x512, .f32⟩
  | .hbm, ⟨12, _⟩ => ⟨S8x1024x512, .f32⟩
  | .hbm, ⟨13, _⟩ => ⟨S8x1x512, .f32⟩
  | .hbm, ⟨14, _⟩ => ⟨S_, .f32⟩
  | .hbm, ⟨15, _⟩ => ⟨S1x512, .f32⟩
  | .hbm, ⟨16, _⟩ => ⟨S1x1x512, .f32⟩
  | .hbm, ⟨17, _⟩ => ⟨S8x1x512, .f32⟩
  | .hbm, ⟨18, _⟩ => ⟨S8x1x512, .f32⟩
  | .hbm, ⟨19, _⟩ => ⟨S8x512, .f32⟩
  | .hbm, ⟨20, _⟩ => ⟨S8x512, .f32⟩
  | .hbm, ⟨21, _⟩ => ⟨S8x1x512, .f32⟩
  | .hbm, ⟨22, _⟩ => ⟨S1x512, .f32⟩
  | .hbm, ⟨23, _⟩ => ⟨S8x512, .f32⟩
  | .hbm, ⟨24, _⟩ => ⟨S8x512, .f32⟩
  | .hbm, ⟨25, _⟩ => ⟨S_, .f32⟩
  | .hbm, ⟨26, _⟩ => ⟨S8, .f32⟩
  | .hbm, ⟨27, _⟩ => ⟨S8x1x1, .f32⟩
  | .hbm, ⟨28, _⟩ => ⟨S8x1x1024, .f32⟩
  | .hbm, ⟨29, _⟩ => ⟨S8x1024, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1x512, .f32⟩
  | .local _ .vmem, ⟨9, _⟩ => ⟨S1x1x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1x512, .f32⟩
  | .local _ .vmem, ⟨13, _⟩ => ⟨S1x1x512, .f32⟩
  | .local _ .vmem, ⟨14, _⟩ => ⟨S1x1x1, .f32⟩
  | .local _ .vmem, ⟨15, _⟩ => ⟨S1x1x1, .f32⟩
  | .local _ .vmem, ⟨16, _⟩ => ⟨S1x1x1024, .f32⟩
  | .local _ .vmem, ⟨17, _⟩ => ⟨S1x1x1024, .f32⟩
  | _, _ => ⟨S8x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8x32x32x512_S8x1024x512 : S8x32x32x512.ShapeCasts S8x1024x512
  transposes_S512x512_S512x512_1_0 : S512x512.Transposes [1, 0] S512x512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  reduces_S1024x512_S512 : S1024x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  reducesTo_S8x1x512_S1x512_d0 : S8x1x512.ReducesTo [0] S1x512
  h_S_ : 0 < S_.numel
  bcast_S1x512_S1x1x512_1_2 : S1x512.BroadcastsInDim S1x1x512 (![1, 2] : Fin 2 → Fin S1x1x512.rank)
  bcast_S1x1x512_S8x1x512_0_1_2 : S1x1x512.BroadcastsInDim S8x1x512 (![0, 1, 2] : Fin 3 → Fin S8x1x512.rank)
  shapeCasts_S8x1x512_S8x512 : S8x1x512.ShapeCasts S8x512
  shapeCasts_S8x512_S8x1x512 : S8x512.ShapeCasts S8x1x512
  bcast_S1x512_S8x512_0_1 : S1x512.BroadcastsInDim S8x512 (![0, 1] : Fin 2 → Fin S8x512.rank)
  reducesTo_S8x512_S8_d1 : S8x512.ReducesTo [1] S8
  shapeCasts_S8_S8x1x1 : S8.ShapeCasts S8x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S1x1024 : S1x1.Broadcasts S1x1024
  reduces_S1x1024_S1 : S1x1024.Reduces [1] S1
  shapeCasts_S1_S1x1 : S1.ShapeCasts S1x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S8x1x1024_S8x1024 : S8x1x1024.ShapeCasts S8x1024
  dot_S1024x512_S512x512_S1024x512_1_0_0_1_n_n_wf : DotDims.WF S1024x512 S512x512 S1024x512 [1] [0] [0] [1] [] []
  dot_S8x512_S512x512_S8x512_1_0_0_1_n_n_wf : DotDims.WF S8x512 S512x512 S8x512 [1] [0] [0] [1] [] []
  dot_S1x512_S1024x512_S1x1024_1_1_0_0_n_n_wf : DotDims.WF S1x512 S1024x512 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x1024x512.size a
  hwx0_5 : ∀ i : grid0.Coords, EltTy.bits .f32 = 32 ∨ (Rect.block (s := S8x1024x512) S1x1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S8x1x512.size a
  hwx0_6 : ∀ i : grid0.Coords, EltTy.bits .f32 = 32 ∨ (Rect.block (s := S8x1x512) S1x1x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x512.size a
  hwx1_0 : ∀ i : grid1.Coords, EltTy.bits .f32 = 32 ∨ (Rect.block (s := S8x1024x512) S1x1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S8x1x512.size a
  hwx1_1 : ∀ i : grid1.Coords, EltTy.bits .f32 = 32 ∨ (Rect.block (s := S8x1x512) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S8x1x1.size a
  hwx1_2 : ∀ i : grid1.Coords, EltTy.bits .f32 = 32 ∨ (Rect.block (s := S8x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S8x1x1024.size a
  hwx1_3 : ∀ i : grid1.Coords, EltTy.bits .f32 = 32 ∨ (Rect.block (s := S8x1x1024) S1x1x1024.size (cc1_transform_3 i) (hinb1_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S1x512_S1024x512_S1x1024_1_1_0_0_n_n : DotDims S1x512 S1024x512 S1x1024 where
  lhsContracting := [1]
  rhsContracting := [1]
  lhsNonContracting := [0]
  rhsNonContracting := [0]
  lhsBatch := []
  rhsBatch := []
  wf := dot_S1x512_S1024x512_S1x1024_1_1_0_0_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1x1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5_0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x32x32x512 : Shape := ⟨4, ![8, 32, 32, 512]⟩
abbrev S512x512 : Shape := ⟨2, ![512, 512]⟩
abbrev S512 : Shape := ⟨1, ![512]⟩
abbrev S1x1x1x512 : Shape := ⟨4, ![1, 1, 1, 512]⟩
abbrev S8192x512 : Shape := ⟨2, ![8192, 512]⟩
abbrev S512x8192 : Shape := ⟨2, ![512, 8192]⟩
abbrev S8192x8192 : Shape := ⟨2, ![8192, 8192]⟩
abbrev S_ : Shape := ⟨0, ![]⟩
abbrev S8x1024x8x1024 : Shape := ⟨4, ![8, 1024, 8, 1024]⟩
abbrev S8x1024x8 : Shape := ⟨3, ![8, 1024, 8]⟩
abbrev S8x1024 : Shape := ⟨2, ![8, 1024]⟩
abbrev S8 : Shape := ⟨1, ![8]⟩
abbrev S8x1 : Shape := ⟨2, ![8, 1]⟩
abbrev S8x2 : Shape := ⟨2, ![8, 2]⟩

abbrev nBuf : Space → Nat
  | .hbm => 81
  | .vmem => 0
  | .smem => 0
  | _ => 0

abbrev bufTy : (tb : Table) → Fin (tcTables nBuf tb) → BufTy
  | .hbm, ⟨0, _⟩ => ⟨S8x32x32x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x32x32x512, .f32⟩
  | .hbm, ⟨8, _⟩ => ⟨S1x1x1x512, .f32⟩
  | .hbm, ⟨9, _⟩ => ⟨S8x32x32x512, .f32⟩
  | .hbm, ⟨10, _⟩ => ⟨S8x32x32x512, .f32⟩
  | .hbm, ⟨11, _⟩ => ⟨S8x32x32x512, .f32⟩
  | .hbm, ⟨12, _⟩ => ⟨S8x32x32x512, .f32⟩
  | .hbm, ⟨13, _⟩ => ⟨S1x1x1x512, .f32⟩
  | .hbm, ⟨14, _⟩ => ⟨S8x32x32x512, .f32⟩
  | .hbm, ⟨15, _⟩ => ⟨S8x32x32x512, .f32⟩
  | .hbm, ⟨16, _⟩ => ⟨S8192x512, .f32⟩
  | .hbm, ⟨17, _⟩ => ⟨S8x32x32x512, .f32⟩
  | .hbm, ⟨18, _⟩ => ⟨S1x1x1x512, .f32⟩
  | .hbm, ⟨19, _⟩ => ⟨S8x32x32x512, .f32⟩
  | .hbm, ⟨20, _⟩ => ⟨S8x32x32x512, .f32⟩
  | .hbm, ⟨21, _⟩ => ⟨S8192x512, .f32⟩
  | .hbm, ⟨22, _⟩ => ⟨S512x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8x1024x8x1024, .f32⟩
  | .hbm, ⟨28, _⟩ => ⟨S_, .f32⟩
  | .hbm, ⟨29, _⟩ => ⟨S8x1024x8, .f32⟩
  | .hbm, ⟨30, _⟩ => ⟨S_, .f32⟩
  | .hbm, ⟨31, _⟩ => ⟨S8x1024, .f32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8, .i32⟩
  | .hbm, ⟨41, _⟩ => ⟨S_, .i32⟩
  | .hbm, ⟨42, _⟩ => ⟨S8, .i32⟩
  | .hbm, ⟨43, _⟩ => ⟨S8, .i1⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S8, .i32⟩
  | .hbm, ⟨48, _⟩ => ⟨S8x1, .i32⟩
  | .hbm, ⟨49, _⟩ => ⟨S8x1, .i32⟩
  | .hbm, ⟨50, _⟩ => ⟨S8x2, .i32⟩
  | .hbm, ⟨51, _⟩ => ⟨S8x1024, .f32⟩
  | .hbm, ⟨52, _⟩ => ⟨S8x1024, .f32⟩
  | .hbm, ⟨53, _⟩ => ⟨S_, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8, .f32⟩
  | .hbm, ⟨58, _⟩ => ⟨S8x1, .f32⟩
  | .hbm, ⟨59, _⟩ => ⟨S_, .f32⟩
  | .hbm, ⟨60, _⟩ => ⟨S8, .f32⟩
  | .hbm, ⟨61, _⟩ => ⟨S8x1, .f32⟩
  | .hbm, ⟨62, _⟩ => ⟨S8x1024, .f32⟩
  | .hbm, ⟨63, _⟩ => ⟨S8x1024, .f32⟩
  | .hbm, ⟨64, _⟩ => ⟨S8x1, .f32⟩
  | .hbm, ⟨65, _⟩ => ⟨S8x1024, .f32⟩
  | .hbm, ⟨66, _⟩ => ⟨S8x1024, .f32⟩
  | .hbm, ⟨67, _⟩ => ⟨S_, .f32⟩
  | .hbm, ⟨68, _⟩ => ⟨S8x1024, .f32⟩
  | .hbm, ⟨69, _⟩ => ⟨S8x1024, .f32⟩
  | .hbm, ⟨70, _⟩ => ⟨S_, .f32⟩
  | .hbm, ⟨71, _⟩ => ⟨S8x1024, .f32⟩
  | .hbm, ⟨72, _⟩ => ⟨S8x1024, .f32⟩
  | .hbm, ⟨73, _⟩ => ⟨S8x1024, .f32⟩
  | .hbm, ⟨74, _⟩ => ⟨S8x1024, .f32⟩
  | .hbm, ⟨75, _⟩ => ⟨S_, .f32⟩
  | .hbm, ⟨76, _⟩ => ⟨S8x1024, .f32⟩
  | .hbm, ⟨77, _⟩ => ⟨S8x1024, .f32⟩
  | .hbm, ⟨78, _⟩ => ⟨S_, .f32⟩
  | .hbm, ⟨79, _⟩ => ⟨S8x1024, .f32⟩
  | .hbm, ⟨80, _⟩ => ⟨S8x1024, .f32⟩
  | _, _ => ⟨S8x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S8x32x32x512_0_1_2_3 : S1x1x1x512.BroadcastsInDim S8x32x32x512 (![0, 1, 2, 3] : Fin 4 → Fin S8x32x32x512.rank)
  shapeCasts_S8x32x32x512_S8192x512 : S8x32x32x512.ShapeCasts S8192x512
  transposes_S8192x512_S512x8192_1_0 : S8192x512.Transposes [1, 0] S512x8192
  bcast_S_S8192x8192 : S_.BroadcastsInDim S8192x8192 (![] : Fin 0 → Fin S8192x8192.rank)
  shapeCasts_S8192x8192_S8x1024x8x1024 : S8192x8192.ShapeCasts S8x1024x8x1024
  reducesTo_S8x1024x8x1024_S8x1024x8_d3 : S8x1024x8x1024.ReducesTo [3] S8x1024x8
  h_S_ : 0 < S_.numel
  reducesTo_S8x1024x8_S8x1024_d2 : S8x1024x8.ReducesTo [2] S8x1024
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  bcast_S_S8x1024 : S_.BroadcastsInDim S8x1024 (![] : Fin 0 → Fin S8x1024.rank)
  reducesTo_S8x1024_S8_d1 : S8x1024.ReducesTo [1] S8
  bcast_S8x1_S8x1024_0_1 : S8x1.BroadcastsInDim S8x1024 (![0, 1] : Fin 2 → Fin S8x1024.rank)
  dot_S8x32x32x512_S512x512_S8x32x32x512_3_1_012_0_n_n_wf : DotDims.WF S8x32x32x512 S512x512 S8x32x32x512 [3] [1] [0, 1, 2] [0] [] []
  dot_S8192x512_S512x8192_S8192x8192_1_0_0_1_n_n_wf : DotDims.WF S8192x512 S512x8192 S8192x8192 [1] [0] [0] [1] [] []
  gather_S8x1024x8_S8x2_S8x1024_1_02_n_n_02_1_110241_wf : GatherDims.WF S8x1024x8 S8x2 S8x1024 [1] [0, 2] [] [0, 2] [] 1 ![1, 1024, 1]

variable [Facts₀]

def dot_S8x32x32x512_S512x512_S8x32x32x512_3_1_012_0_n_n : DotDims S8x32x32x512 S512x512 S8x32x32x512 where
  lhsContracting := [3]
  rhsContracting := [1]
  lhsNonContracting := [0, 1, 2]
  rhsNonContracting := [0]
  lhsBatch := []
  rhsBatch := []
  wf := dot_S8x32x32x512_S512x512_S8x32x32x512_3_1_012_0_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8x1024x8_S8x2_S8x1024_1_02_n_n_02_1_110241 : GatherDims S8x1024x8 S8x2 S8x1024 where
  offsetDims := [1]
  collapsedSliceDims := [0, 2]
  operandBatchingDims := []
  startIndicesBatchingDims := []
  startIndexMap := [0, 2]
  indexVectorDim := 1
  sliceSizes := ![1, 1024, 1]
  wf := gather_S8x1024x8_S8x2_S8x1024_1_02_n_n_02_1_110241_wf

class Facts : Prop extends Facts₀ where

variable [Facts]
-- ==== Proof.Spec.lean ====
/-
  The common vocabulary of this certificate's value proof, over the extended reals and over literal extents:
  a batch of 8 images of 32 × 32 = 1024 pixels with 512 channels.

  Both programs first form the residual 1×1 convolution `xr = x·cwᵀ + cb + x` and its key projection
  `k = xr·kwᵀ + kb`.  The reference also forms the query projection `q = xr·qwᵀ + qb`, the full affinity
  `(q·kᵀ)·D` between all 8192 pixels, its block sums over each key image, and the mean over the seven OTHER
  images (`repRef`).  The kernel instead sums the keys of each image first (`ksum`), takes the difference with the
  total (`kdiff`), folds the query projection into it, and contracts with `xr` (`repKer`).  Either way a row of
  1024 values is then min–max normalised, shifted, scaled and passed through the logistic function (`gate`).
-/
import Idealize.ShloMosaic.PureOps.Ideal
import Idealize.ShloMosaic.Lib.ValueIdx

noncomputable section

namespace Cert.Attn

open Idealize.ShloMosaic Idealize.ShloMosaic.ValueIdx

/-- The image batch, a weight matrix `[out, in]`, a bias. -/
abbrev T4 : Type := (⟨4, ![8, 32, 32, 512]⟩ : Shape).Idx → EReal
abbrev T2 : Type := (⟨2, ![512, 512]⟩ : Shape).Idx → EReal
abbrev T1 : Type := (⟨1, ![512]⟩ : Shape).Idx → EReal
/-- A value per image, pixel and channel. -/
abbrev Pix : Type := Fin 8 → Fin 1024 → Fin 512 → EReal

/-- Pixel `p` of the flattened 1024 sits in row `p / 32`, column `p % 32`. -/
def prow (p : Fin 1024) : Fin 32 := ⟨p.val / 32, by have := p.isLt; omega⟩
def pcol (p : Fin 1024) : Fin 32 := ⟨p.val % 32, Nat.mod_lt _ (by decide)⟩

/-- The batch read per image, flattened pixel and channel. -/
def pix (x : T4) : Pix := fun i p c => x (ix4 i (prow p) (pcol p) c)

/-- A 1×1 convolution: `y[i,p,o] = Σ_c u[i,p,c] · w[o,c] + b[o]`. -/
def conv (u : Pix) (w : T2) (b : T1) : Pix := fun i p o => (∑ c : Fin 512, u i p c * w (ix2 o c)) + b (ix1 o)

/-- The residual convolution `xr = conv x + x`. -/
def resid (x : T4) (cw : T2) (cb : T1) : Pix := fun i p o => conv (pix x) cw cb i p o + pix x i p o

/-- The reference's block sum `s[i,p,j] = Σ_r (Σ_o q[i,p,o] · k[j,r,o]) · D` over the pixels `r` of key image `j`. -/
def blockSum (q k : Pix) (D : EReal) (i : Fin 8) (p : Fin 1024) (j : Fin 8) : EReal :=
  ∑ r : Fin 1024, (∑ o : Fin 512, q i p o * k j r o) * D

/-- The reference's masked mean: all block sums minus the own image's, divided by `N`. -/
def repRef (q k : Pix) (D N : EReal) (i : Fin 8) (p : Fin 1024) : EReal :=
  Ideal.div ((∑ j : Fin 8, blockSum q k D i p j) - blockSum q k D i p i) N

/-- The keys of image `i` summed over its pixels. -/
def ksum (k : Pix) (i : Fin 8) (o : Fin 512) : EReal := ∑ p : Fin 1024, k i p o

/-- The keys of all images but `i`, summed: the total minus the own sum. -/
def kdiff (k : Pix) (i : Fin 8) (o : Fin 512) : EReal := (∑ j : Fin 8, ksum k j o) - ksum k i o

/-- The kernel's contraction: `xr[i,p,:] · (kdiff[i,:]·qw) · C + (kdiff[i,:]·qb) · C`. -/
def repKer (u k : Pix) (qw : T2) (qb : T1) (C : EReal) (i : Fin 8) (p : Fin 1024) : EReal :=
  (∑ c : Fin 512, (∑ o : Fin 512, kdiff k i o * qw (ix2 o c)) * u i p c) * C
    + (∑ o : Fin 512, kdiff k i o * qb (ix1 o)) * C

/-- A row's minimum and maximum, folded from +∞ and −∞. -/
def rowMin (r : Fin 1024 → EReal) : EReal :=
  (Finset.univ : Finset (Fin 1024)).fold min (Ideal.ofBits .f32 0x7F800000#32) r
def rowMax (r : Fin 1024 → EReal) : EReal :=
  (Finset.univ : Finset (Fin 1024)).fold max (Ideal.ofBits .f32 0xFF800000#32) r

/-- Min–max normalisation of a row, then `logistic ((· − 0.65) / 0.15)` with the two f32 words as printed. -/
def gate (r : Fin 1024 → EReal) (p : Fin 1024) : EReal :=
  Ideal.logistic (Ideal.div (Ideal.div (r p - rowMin r) (rowMax r - rowMin r) - Ideal.ofBits .f32 0x3F266666#32)
    (Ideal.ofBits .f32 0x3E19999A#32))

/-- The kernel's result as one function of the arguments. -/
def outKer (x : T4) (cw : T2) (cb : T1) (qw : T2) (qb : T1) (kw : T2) (kb : T1) (i : Fin 8) (p : Fin 1024) : EReal :=
  gate (repKer (resid x cw cb) (conv (resid x cw cb) kw kb) qw qb (Ideal.ofBits .f32 0x36CEE116#32) i) p

/-- The reference's result as one function of the arguments. -/
def outRef (x : T4) (cw : T2) (cb : T1) (qw : T2) (qb : T1) (kw : T2) (kb : T1) (i : Fin 8) (p : Fin 1024) : EReal :=
  gate (repRef (conv (resid x cw cb) qw qb) (conv (resid x cw cb) kw kb) (Ideal.ofBits .f32 0x3D3504F3#32)
    (Ideal.ofBits .f32 0x45E00000#32) i) p

end Cert.Attn

end
-- ==== Proof.Result.lean ====
/-
  The result array `[8,1024]` both programs end with, as one function of the seven arguments.
-/
import proofs.«151920_j3161095930112_2_alg».proof.Proof.Spec

noncomputable section

namespace Cert.Attn

open Idealize.ShloMosaic Idealize.ShloMosaic.ValueIdx

/-- Entry `(i, p)` of the result is the kernel's value `outKer` at image `i`, pixel `p`. -/
def resultOf (a0 : T4) (a1 : T2) (a2 : T1) (a3 : T2) (a4 : T1) (a5 : T2) (a6 : T1) : (⟨2, ![8, 1024]⟩ : Shape).Idx → EReal :=
  fun j => outKer a0 a1 a2 a3 a4 a5 a6 ⟨(j 0).val, (j 0).isLt⟩ ⟨(j 1).val, (j 1).isLt⟩

theorem resultOf_apply (a0 : T4) (a1 : T2) (a2 : T1) (a3 : T2) (a4 : T1) (a5 : T2) (a6 : T1) (i : Fin 8) (p : Fin 1024) :
    resultOf a0 a1 a2 a3 a4 a5 a6 (ix2 i p) = outKer a0 a1 a2 a3 a4 a5 a6 i p := rfl

end Cert.Attn

end
-- ==== Proof.RefProj.lean ====
/-
  The reference's projections read at an index.

  The reference first forms the residual 1×1 convolution `xr = x·cwᵀ + cb + x` on the [8, 32, 32, 512] batch, then the
  query and key projections `q = xr·qwᵀ + qb`, `k = xr·kwᵀ + kb`, and flattens each to [8192, 512]: row
  `i * 1024 + p` of the flat array is pixel `p` of image `i`, and pixel `p` sits in row `p / 32`, column `p % 32` of
  its image. The key array is also transposed to [512, 8192]. Each of these arrays is read here at an index built from
  literal coordinates, as the specification's `resid` and `conv`.
-/
import proofs.«151920_j3161095930112_2_alg».proof.Proof.Spec
import proofs.«151920_j3161095930112_2_alg».proof.Proof.Gen.ReferenceIdeal.Read

noncomputable section

namespace Cert.Attn.Ref

open Idealize.ShloMosaic Idealize.ShloMosaic.ValueIdx Cert.ReferenceIdeal Cert.ReferenceIdeal.Read

/-- The row of a flattened [8192, ·] array that holds pixel `p` of image `i`. -/
def row (i : Fin 8) (p : Fin 1024) : Fin 8192 := ⟨i.val * 1024 + p.val, by have := i.isLt; have := p.isLt; omega⟩

/-- The residual convolution at image `i`, row `h`, column `w`, channel `o`. -/
theorem v4_at (x0 : T4) (x1 : T2) (x2 : T1) (i : Fin 8) (h w : Fin 32) (o : Fin 512) :
    val_main_v4 (F := Ideal) x0 x1 x2 (ix4 i h w o)
      = (∑ c : Fin 512, x0 (ix4 i h w c) * x1 (ix2 o c)) + x2 (ix1 o) + x0 (ix4 i h w o) := by
  have el : ∀ k : Fin 512, lidx_main_v0 (ix4 i h w o) k = ix4 i h w k := fun k => funext fun a => Fin.ext (by
    match a with | ⟨0, _⟩ => rfl | ⟨1, _⟩ => rfl | ⟨2, _⟩ => rfl | ⟨3, _⟩ => rfl)
  have er : ∀ k : Fin 512, ridx_main_v0 (ix4 i h w o) k = ix2 o k := fun k => funext fun a => Fin.ext (by
    match a with | ⟨0, _⟩ => rfl | ⟨1, _⟩ => rfl)
  have eb : idx_main_v1 (idx_main_v2 (ix4 i h w o)) = ix1 o := funext fun a => Fin.ext (by
    match a with | ⟨0, _⟩ => rfl)
  rw [val_main_v4_apply, val_main_v3_apply, val_main_v0_apply, val_main_v2_apply, val_main_v1_apply, eb]
  simp only [el, er, Ideal.addf_def]

/-- The residual convolution at pixel `p` of image `i` is the specification's `resid`. -/
theorem v4_pix (x0 : T4) (x1 : T2) (x2 : T1) (i : Fin 8) (p : Fin 1024) (o : Fin 512) :
    val_main_v4 (F := Ideal) x0 x1 x2 (ix4 i (prow p) (pcol p) o) = resid x0 x1 x2 i p o := by
  rw [v4_at]
  rfl

/-- A projection of the residual convolution by a weight matrix and a bias, at image `i`, row `h`, column `w`. -/
theorem v8_at (x0 : T4) (x1 : T2) (x2 : T1) (x3 : T2) (x4 : T1) (i : Fin 8) (h w : Fin 32) (o : Fin 512) :
    val_main_v8 (F := Ideal) x0 x1 x2 x3 x4 (ix4 i h w o)
      = (∑ c : Fin 512, val_main_v4 (F := Ideal) x0 x1 x2 (ix4 i h w c) * x3 (ix2 o c)) + x4 (ix1 o) := by
  have el : ∀ k : Fin 512, lidx_main_v5 (ix4 i h w o) k = ix4 i h w k := fun k => funext fun a => Fin.ext (by
    match a with | ⟨0, _⟩ => rfl | ⟨1, _⟩ => rfl | ⟨2, _⟩ => rfl | ⟨3, _⟩ => rfl)
  have er : ∀ k : Fin 512, ridx_main_v5 (ix4 i h w o) k = ix2 o k := fun k => funext fun a => Fin.ext (by
    match a with | ⟨0, _⟩ => rfl | ⟨1, _⟩ => rfl)
  have eb : idx_main_v6 (idx_main_v7 (ix4 i h w o)) = ix1 o := funext fun a => Fin.ext (by
    match a with | ⟨0, _⟩ => rfl)
  rw [val_main_v8_apply, val_main_v5_apply, val_main_v7_apply, val_main_v6_apply, eb]
  simp only [el, er, Ideal.addf_def]

theorem v13_at (x0 : T4) (x1 : T2) (x2 : T1) (x5 : T2) (x6 : T1) (i : Fin 8) (h w : Fin 32) (o : Fin 512) :
    val_main_v13 (F := Ideal) x0 x1 x2 x5 x6 (ix4 i h w o)
      = (∑ c : Fin 512, val_main_v4 (F := Ideal) x0 x1 x2 (ix4 i h w c) * x5 (ix2 o c)) + x6 (ix1 o) := by
  have el : ∀ k : Fin 512, lidx_main_v10 (ix4 i h w o) k = ix4 i h w k := fun k => funext fun a => Fin.ext (by
    match a with | ⟨0, _⟩ => rfl | ⟨1, _⟩ => rfl | ⟨2, _⟩ => rfl | ⟨3, _⟩ => rfl)
  have er : ∀ k : Fin 512, ridx_main_v10 (ix4 i h w o) k = ix2 o k := fun k => funext fun a => Fin.ext (by
    match a with | ⟨0, _⟩ => rfl | ⟨1, _⟩ => rfl)
  have eb : idx_main_v11 (idx_main_v12 (ix4 i h w o)) = ix1 o := funext fun a => Fin.ext (by
    match a with | ⟨0, _⟩ => rfl)
  rw [val_main_v13_apply, val_main_v10_apply, val_main_v12_apply, val_main_v11_apply, eb]
  simp only [el, er, Ideal.addf_def]

/-- The query projection at pixel `p` of image `i` is the specification's `conv` of `resid`. -/
theorem v8_pix (x0 : T4) (x1 : T2) (x2 : T1) (x3 : T2) (x4 : T1) (i : Fin 8) (p : Fin 1024) (o : Fin 512) :
    val_main_v8 (F := Ideal) x0 x1 x2 x3 x4 (ix4 i (prow p) (pcol p) o) = conv (resid x0 x1 x2) x3 x4 i p o := by
  rw [v8_at]
  simp only [v4_pix]
  rfl

/-- The key projection at pixel `p` of image `i`. -/
theorem v13_pix (x0 : T4) (x1 : T2) (x2 : T1) (x5 : T2) (x6 : T1) (i : Fin 8) (p : Fin 1024) (o : Fin 512) :
    val_main_v13 (F := Ideal) x0 x1 x2 x5 x6 (ix4 i (prow p) (pcol p) o) = conv (resid x0 x1 x2) x5 x6 i p o := by
  rw [v13_at]
  simp only [v4_pix]
  rfl

/-- Row `i * 1024 + p`, column `o` of the flat [8192, 512] array is entry `(i, p / 32, p % 32, o)` of the batch. -/
theorem flat_idx (i : Fin 8) (p : Fin 1024) (o : Fin 512) :
    idx_main_v9 (ix2 (row i p) o) = ix4 i (prow p) (pcol p) o := by
  have hi := i.isLt; have hp := p.isLt; have ho := o.isLt
  funext a
  apply Fin.ext
  match a with
  | ⟨0, _⟩ => show ((i.val * 1024 + p.val) * 512 + o.val) / 524288 = i.val; omega
  | ⟨1, _⟩ => show ((i.val * 1024 + p.val) * 512 + o.val) / 16384 % 32 = p.val / 32; omega
  | ⟨2, _⟩ => show ((i.val * 1024 + p.val) * 512 + o.val) / 512 % 32 = p.val % 32; omega
  | ⟨3, _⟩ => show ((i.val * 1024 + p.val) * 512 + o.val) % 512 = o.val; omega

/-- The flattened query projection at row `i * 1024 + p`. -/
theorem v9_row (x0 : T4) (x1 : T2) (x2 : T1) (x3 : T2) (x4 : T1) (i : Fin 8) (p : Fin 1024) (o : Fin 512) :
    val_main_v9 (F := Ideal) x0 x1 x2 x3 x4 (ix2 (row i p) o) = conv (resid x0 x1 x2) x3 x4 i p o := by
  rw [val_main_v9_apply, flat_idx, v8_pix]

/-- The flattened key projection at row `j * 1024 + r`. -/
theorem v14_row (x0 : T4) (x1 : T2) (x2 : T1) (x5 : T2) (x6 : T1) (j : Fin 8) (r : Fin 1024) (o : Fin 512) :
    val_main_v14 (F := Ideal) x0 x1 x2 x5 x6 (ix2 (row j r) o) = conv (resid x0 x1 x2) x5 x6 j r o := by
  rw [val_main_v14_apply]
  have e : idx_main_v14 (ix2 (row j r) o) = idx_main_v9 (ix2 (row j r) o) := rfl
  rw [e, flat_idx, v13_pix]

/-- The transposed key projection at channel `o`, column `j * 1024 + r`. -/
theorem v15_col (x0 : T4) (x1 : T2) (x2 : T1) (x5 : T2) (x6 : T1) (j : Fin 8) (r : Fin 1024) (o : Fin 512) :
    val_main_v15 (F := Ideal) x0 x1 x2 x5 x6 (ix2 o (row j r)) = conv (resid x0 x1 x2) x5 x6 j r o := by
  have e : idx_main_v15 (ix2 o (row j r)) = ix2 (row j r) o := funext fun a => Fin.ext (by
    match a with | ⟨0, _⟩ => rfl | ⟨1, _⟩ => rfl)
  rw [val_main_v15_apply, e, v14_row]

end Cert.Attn.Ref

end
-- ==== Proof.RefBlock.lean ====
/-
  The reference's affinity and its block sums read at an index.

  The [8192, 8192] product of the flat query array with the transposed flat key array, times the scale word, has at
  row `i * 1024 + p`, column `j * 1024 + r` the scaled inner product of query pixel `p` of image `i` with key pixel
  `r` of image `j`. Reshaped to [8, 1024, 8, 1024] that entry sits at `(i, p, j, r)`; summed over the last axis from
  the zero word it is the specification's `blockSum`, and summed again over the key images it is their total.
-/
import proofs.«151920_j3161095930112_2_alg».proof.Proof.RefProj

noncomputable section

namespace Cert.Attn.Ref

open Idealize.ShloMosaic Idealize.ShloMosaic.ValueIdx Cert.ReferenceIdeal Cert.ReferenceIdeal.Read

/-- The scaled affinity between pixel `p` of image `i` and pixel `r` of image `j`. -/
theorem v18_at (x0 : T4) (x1 : T2) (x2 : T1) (x3 : T2) (x4 : T1) (x5 : T2) (x6 : T1) (i : Fin 8) (p : Fin 1024) (j : Fin 8) (r : Fin 1024) :
    val_main_v18 (F := Ideal) x0 x1 x2 x3 x4 x5 x6 (ix2 (row i p) (row j r))
      = (∑ o : Fin 512, (conv (resid x0 x1 x2) x3 x4) i p o * (conv (resid x0 x1 x2) x5 x6) j r o) * Ideal.ofBits .f32 0x3D3504F3#32 := by
  have el : ∀ k : Fin 512, lidx_main_v16 (ix2 (row i p) (row j r)) k = ix2 (row i p) k := fun k =>
    funext fun a => Fin.ext (by match a with | ⟨0, _⟩ => rfl | ⟨1, _⟩ => rfl)
  have er : ∀ k : Fin 512, ridx_main_v16 (ix2 (row i p) (row j r)) k = ix2 k (row j r) := fun k =>
    funext fun a => Fin.ext (by match a with | ⟨0, _⟩ => rfl | ⟨1, _⟩ => rfl)
  rw [val_main_v18_apply, val_main_v16_apply, val_main_v17_apply, val_main_cst_apply]
  simp only [el, er, v9_row, v15_col, Ideal.mulf_def, Ideal.ofBits_def]

/-- Entry `(i, p, j, r)` of the [8, 1024, 8, 1024] array is entry `(i * 1024 + p, j * 1024 + r)` of the square one. -/
theorem block_idx (i : Fin 8) (p : Fin 1024) (j : Fin 8) (r : Fin 1024) :
    idx_main_v19 (ix4 i p j r) = ix2 (row i p) (row j r) := by
  have hi := i.isLt; have hp := p.isLt; have hj := j.isLt; have hr := r.isLt
  funext a
  apply Fin.ext
  match a with
  | ⟨0, _⟩ =>
    show (((i.val * 1024 + p.val) * 8 + j.val) * 1024 + r.val) / 8192 = i.val * 1024 + p.val
    omega
  | ⟨1, _⟩ =>
    show (((i.val * 1024 + p.val) * 8 + j.val) * 1024 + r.val) % 8192 = j.val * 1024 + r.val
    omega

/-- The block sums: the reshaped affinity summed over the pixels of key image `j`. -/
theorem v20_at (x0 : T4) (x1 : T2) (x2 : T1) (x3 : T2) (x4 : T1) (x5 : T2) (x6 : T1) (i : Fin 8) (p : Fin 1024) (j : Fin 8) :
    val_main_v20 (F := Ideal) x0 x1 x2 x3 x4 x5 x6 (ix3 i p j)
      = blockSum (conv (resid x0 x1 x2) x3 x4) (conv (resid x0 x1 x2) x5 x6) (Ideal.ofBits .f32 0x3D3504F3#32) i p j := by
  have e : ∀ r : Fin 1024, idx_main_v20 (ix3 i p j) r = ix4 i p j r := fun r =>
    funext fun a => Fin.ext (by match a with | ⟨0, _⟩ => rfl | ⟨1, _⟩ => rfl | ⟨2, _⟩ => rfl | ⟨3, _⟩ => rfl)
  rw [val_main_v20_apply, val_main_cst_0_apply]
  simp only [e, val_main_v19_apply, block_idx, v18_at, Ideal.ofBits_def, Ideal.ofBits_zero_f32, zero_add]
  rfl

/-- The total over the key images. -/
theorem v21_at (x0 : T4) (x1 : T2) (x2 : T1) (x3 : T2) (x4 : T1) (x5 : T2) (x6 : T1) (i : Fin 8) (p : Fin 1024) :
    val_main_v21 (F := Ideal) x0 x1 x2 x3 x4 x5 x6 (ix2 i p)
      = ∑ j : Fin 8, blockSum (conv (resid x0 x1 x2) x3 x4) (conv (resid x0 x1 x2) x5 x6) (Ideal.ofBits .f32 0x3D3504F3#32) i p j := by
  have e : ∀ j : Fin 8, idx_main_v21 (ix2 i p) j = ix3 i p j := fun j =>
    funext fun a => Fin.ext (by match a with | ⟨0, _⟩ => rfl | ⟨1, _⟩ => rfl | ⟨2, _⟩ => rfl)
  rw [val_main_v21_apply, val_main_cst_1_apply]
  simp only [e, v20_at, Ideal.ofBits_def, Ideal.ofBits_zero_f32, zero_add]

end Cert.Attn.Ref

end
-- ==== Proof.RefGather.lean ====
/-
  The reference's own block sum: the index table and the gather.

  The reference picks, for every image `i`, the block sum against its own keys, `s[i, :, i]`. It builds the table of
  start indices `[[i, i]]` from the counting vector 0, …, 7 (wrapped as a possibly negative index would be: a count
  below zero would have 8 added, and none is), broadcast to a column and joined with itself along the second axis,
  and gathers with it from the [8, 1024, 8] array of block sums: the first component of a start index selects the
  query image, the second the key image, and the middle axis is copied whole. The start indices are the integers
  0, …, 7, inside the array, so the clamp of a start index changes nothing.
-/
import proofs.«151920_j3161095930112_2_alg».proof.Proof.Gen.ReferenceIdeal.Read

noncomputable section

namespace Cert.Attn.Ref

open Idealize.ShloMosaic Idealize.ShloMosaic.ValueIdx Cert.ReferenceIdeal Cert.ReferenceIdeal.Read

/-- A count below 8 is not negative as a signed word, so the wrap-around select keeps it. -/
theorem wrap_small : ∀ i : Fin 8,
    Scalar.select (IntOp.cmpi .slt (BitVec.ofNat 32 i.val) 0#32) (IntOp.addi (BitVec.ofNat 32 i.val) 8#32)
      (BitVec.ofNat 32 i.val) = BitVec.ofNat 32 i.val := by decide

/-- A count below 8, read signed and clamped into 0, …, 7, is itself. -/
theorem clamp_small : ∀ i : Fin 8, min (BitVec.ofNat 32 i.val).toInt.toNat 7 = i.val := by decide

/-- The first wrapped counting vector at `i` is the word `i`. -/
theorem v28_at (i : Fin 8) : val_main_v28 (F := Ideal) (ix1 i) = BitVec.ofNat 32 i.val := by
  rw [val_main_v28_apply, val_main_v25_apply, val_main_v27_apply, val_main_v22_apply, val_main_v24_apply,
    val_main_v26_apply, val_main_c_apply, val_main_c_2_apply]
  exact wrap_small i

/-- The second wrapped counting vector at `i` is the word `i`. -/
theorem v33_at (i : Fin 8) : val_main_v33 (F := Ideal) (ix1 i) = BitVec.ofNat 32 i.val := by
  rw [val_main_v33_apply, val_main_v30_apply, val_main_v32_apply, val_main_v23_apply, val_main_v29_apply,
    val_main_v31_apply, val_main_c_3_apply, val_main_c_4_apply]
  exact wrap_small i

/-- The table of start indices: both entries of row `i` are the word `i`. -/
theorem v36_at (i : Fin 8) (c : Fin 2) : val_main_v36 (F := Ideal) (ix2 i c) = BitVec.ofNat 32 i.val := by
  unfold val_main_v36
  match c with
  | ⟨0, _⟩ =>
    refine (concatenate_pair_apply_left (t := S8x2) (s₁ := S8x1) (s₂ := S8x1) (1 : Fin 2) _ _ _ _ rfl
      (ix2 i (0 : Fin 1)) ?_).trans ?_
    · intro b
      match b with
      | ⟨0, _⟩ => rfl
      | ⟨1, _⟩ => rfl
    · have e : idx_main_v34 (ix2 i (0 : Fin 1)) = ix1 i := funext fun a => Fin.ext (by
        match a with | ⟨0, _⟩ => rfl)
      rw [val_main_v34_apply, e, v28_at]
  | ⟨1, _⟩ =>
    refine (concatenate_pair_apply_right (t := S8x2) (s₁ := S8x1) (s₂ := S8x1) (1 : Fin 2) _ _ _ _ rfl rfl
      (ix2 i (0 : Fin 1)) ?_ ?_).trans ?_
    · intro b hb
      match b with
      | ⟨0, _⟩ => rfl
      | ⟨1, _⟩ => exact absurd rfl hb
    · rfl
    · have e : idx_main_v35 (ix2 i (0 : Fin 1)) = ix1 i := funext fun a => Fin.ext (by
        match a with | ⟨0, _⟩ => rfl)
      rw [val_main_v35_apply, e, v33_at]

/-- The start-indices entry a result index `(i, p)` reads for the first mapped operand axis is `(i, 0)`. -/
theorem gather_si0 (i : Fin 8) (p : Fin 1024) :
    gather_S8x1024x8_S8x2_S8x1024_1_02_n_n_02_1_110241.siIdx (ix2 i p) ⟨List.idxOf (0 : Fin 3) gather_S8x1024x8_S8x2_S8x1024_1_02_n_n_02_1_110241.startIndexMap,
        List.idxOf_lt_length_iff.2 (show (0 : Fin 3) ∈ gather_S8x1024x8_S8x2_S8x1024_1_02_n_n_02_1_110241.startIndexMap by decide)⟩ = ix2 i (0 : Fin 2) := by
  funext c; refine Fin.ext ?_
  match c with
  | ⟨0, _⟩ => rfl
  | ⟨1, _⟩ => rfl

/-- … and for the second mapped operand axis it is `(i, 1)`. -/
theorem gather_si2 (i : Fin 8) (p : Fin 1024) :
    gather_S8x1024x8_S8x2_S8x1024_1_02_n_n_02_1_110241.siIdx (ix2 i p) ⟨List.idxOf (2 : Fin 3) gather_S8x1024x8_S8x2_S8x1024_1_02_n_n_02_1_110241.startIndexMap,
        List.idxOf_lt_length_iff.2 (show (2 : Fin 3) ∈ gather_S8x1024x8_S8x2_S8x1024_1_02_n_n_02_1_110241.startIndexMap by decide)⟩ = ix2 i (1 : Fin 2) := by
  funext c; refine Fin.ext ?_
  match c with
  | ⟨0, _⟩ => rfl
  | ⟨1, _⟩ => rfl

/-- The operand index of result index `(i, p)` on axis 0 (the query image): the first start-index component,
    read signed and clamped. -/
theorem gather_coord0 (idx : IVec S8x2 32) (i : Fin 8) (p : Fin 1024) :
    (gather_S8x1024x8_S8x2_S8x1024_1_02_n_n_02_1_110241.operandIdx (ix2 i p) idx (0 : Fin 3)).val = min (idx (ix2 i (0 : Fin 2))).toInt.toNat 7 := by
  show gather_S8x1024x8_S8x2_S8x1024_1_02_n_n_02_1_110241.start (ix2 i p) idx 0 + gather_S8x1024x8_S8x2_S8x1024_1_02_n_n_02_1_110241.batchCoord (ix2 i p) 0 + gather_S8x1024x8_S8x2_S8x1024_1_02_n_n_02_1_110241.offCoord (ix2 i p) 0 = _
  rw [GatherDims.batchCoord_eq_zero _ _ _ List.not_mem_nil, Nat.add_zero,
    GatherDims.offCoord_eq_zero _ _ _ (show (0 : Fin 3) ∉ gather_S8x1024x8_S8x2_S8x1024_1_02_n_n_02_1_110241.sKept by decide), Nat.add_zero]
  unfold GatherDims.start
  rw [dif_pos (show (0 : Fin 3) ∈ gather_S8x1024x8_S8x2_S8x1024_1_02_n_n_02_1_110241.startIndexMap by decide), gather_si0]
  rfl

/-- On axis 1 (the pixel, copied whole): the result's own coordinate. -/
theorem gather_coord1 (idx : IVec S8x2 32) (i : Fin 8) (p : Fin 1024) :
    (gather_S8x1024x8_S8x2_S8x1024_1_02_n_n_02_1_110241.operandIdx (ix2 i p) idx (1 : Fin 3)).val = p.val := by
  show gather_S8x1024x8_S8x2_S8x1024_1_02_n_n_02_1_110241.start (ix2 i p) idx 1 + gather_S8x1024x8_S8x2_S8x1024_1_02_n_n_02_1_110241.batchCoord (ix2 i p) 1 + gather_S8x1024x8_S8x2_S8x1024_1_02_n_n_02_1_110241.offCoord (ix2 i p) 1 = _
  rw [GatherDims.batchCoord_eq_zero _ _ _ List.not_mem_nil, Nat.add_zero]
  unfold GatherDims.start
  rw [dif_neg (show ¬ (1 : Fin 3) ∈ gather_S8x1024x8_S8x2_S8x1024_1_02_n_n_02_1_110241.startIndexMap by decide), Nat.zero_add]
  rfl

/-- On axis 2 (the key image): the second start-index component, read signed and clamped. -/
theorem gather_coord2 (idx : IVec S8x2 32) (i : Fin 8) (p : Fin 1024) :
    (gather_S8x1024x8_S8x2_S8x1024_1_02_n_n_02_1_110241.operandIdx (ix2 i p) idx (2 : Fin 3)).val = min (idx (ix2 i (1 : Fin 2))).toInt.toNat 7 := by
  show gather_S8x1024x8_S8x2_S8x1024_1_02_n_n_02_1_110241.start (ix2 i p) idx 2 + gather_S8x1024x8_S8x2_S8x1024_1_02_n_n_02_1_110241.batchCoord (ix2 i p) 2 + gather_S8x1024x8_S8x2_S8x1024_1_02_n_n_02_1_110241.offCoord (ix2 i p) 2 = _
  rw [GatherDims.batchCoord_eq_zero _ _ _ List.not_mem_nil, Nat.add_zero,
    GatherDims.offCoord_eq_zero _ _ _ (show (2 : Fin 3) ∉ gather_S8x1024x8_S8x2_S8x1024_1_02_n_n_02_1_110241.sKept by decide), Nat.add_zero]
  unfold GatherDims.start
  rw [dif_pos (show (2 : Fin 3) ∈ gather_S8x1024x8_S8x2_S8x1024_1_02_n_n_02_1_110241.startIndexMap by decide), gather_si2]
  rfl

/-- THE GATHER AT `(i, p)`: with start indices whose two components in row `i`, read signed and clamped into
    0, …, 7, are `a` and `b`, the result at `(i, p)` is the operand at `(a, p, b)`. -/
theorem gather_at {α : Type} (x : S8x1024x8.Idx → α) (idx : IVec S8x2 32) (i : Fin 8) (p : Fin 1024) (a b : Fin 8)
    (ha : min (idx (ix2 i (0 : Fin 2))).toInt.toNat 7 = a.val)
    (hb : min (idx (ix2 i (1 : Fin 2))).toInt.toNat 7 = b.val) :
    Host.gather gather_S8x1024x8_S8x2_S8x1024_1_02_n_n_02_1_110241 x idx (ix2 i p) = x (ix3 a p b) := by
  unfold Host.gather
  refine congrArg x (funext fun ax => Fin.ext ?_)
  match ax with
  | ⟨0, _⟩ => exact (gather_coord0 idx i p).trans ha
  | ⟨1, _⟩ => exact gather_coord1 idx i p
  | ⟨2, _⟩ => exact (gather_coord2 idx i p).trans hb

/-- The reference's gather at `(i, p)` reads the block sums at `(i, p, i)`. -/
theorem v37_at (x0 : (⟨S8x32x32x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x512, .f32⟩ : BufTy).Contents (Elt Ideal))
    (x6 : (⟨S512, .f32⟩ : BufTy).Contents (Elt Ideal)) (i : Fin 8) (p : Fin 1024) :
    val_main_v37 (F := Ideal) x0 x1 x2 x3 x4 x5 x6 (ix2 i p)
      = val_main_v20 (F := Ideal) x0 x1 x2 x3 x4 x5 x6 (ix3 i p i) := by
  unfold val_main_v37
  generalize val_main_v20 (F := Ideal) x0 x1 x2 x3 x4 x5 x6 = y
  exact gather_at y _ i p i i (by rw [v36_at]; exact clamp_small i) (by rw [v36_at]; exact clamp_small i)

end Cert.Attn.Ref

end
-- ==== Proof.RefRep.lean ====
/-
  The reference's masked mean read at an index.

  The total of the block sums over the key images, minus the gathered own block sum, divided by the word 0x45E00000
  (7168 = 7 · 1024, the number of pixels of the seven other images), is the specification's `repRef` of the query and
  key projections.
-/
import proofs.«151920_j3161095930112_2_alg».proof.Proof.RefBlock
import proofs.«151920_j3161095930112_2_alg».proof.Proof.RefGather

noncomputable section

namespace Cert.Attn.Ref

open Idealize.ShloMosaic Idealize.ShloMosaic.ValueIdx Cert.ReferenceIdeal Cert.ReferenceIdeal.Read

/-- The masked mean at image `i`, pixel `p`. -/
theorem v40_at (x0 : T4) (x1 : T2) (x2 : T1) (x3 : T2) (x4 : T1) (x5 : T2) (x6 : T1) (i : Fin 8) (p : Fin 1024) :
    val_main_v40 (F := Ideal) x0 x1 x2 x3 x4 x5 x6 (ix2 i p)
      = repRef (conv (resid x0 x1 x2) x3 x4) (conv (resid x0 x1 x2) x5 x6) (Ideal.ofBits .f32 0x3D3504F3#32) (Ideal.ofBits .f32 0x45E00000#32) i p := by
  rw [val_main_v40_apply, val_main_v38_apply, val_main_v39_apply, val_main_cst_5_apply, v21_at, v37_at, v20_at]
  rfl

end Cert.Attn.Ref

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.RefGate.lean ====
/-
  The reference's row normalisation and logistic gate read at an index.

  From the [8, 1024] array `rep` of masked means the reference takes each row's minimum (a fold of `min` from +∞)
  and maximum (a fold of `max` from −∞), broadcasts them back over the row, and forms
  `1 / (1 + exp (−((rep − min) / (max − min) − 0.65) / 0.15))` with the two f32 words as printed. At image `i`, pixel
  `p` this is the specification's `gate` of row `i` of `rep` at `p`: the logistic function is by definition
  `1 / (1 + exp (−z))`, and the word 0x3F800000 is the number one.
-/
import proofs.«151920_j3161095930112_2_alg».proof.Proof.Spec
import proofs.«151920_j3161095930112_2_alg».proof.Proof.Gen.ReferenceIdeal.Read
import proofs.«151920_j3161095930112_2_alg».proof.Proof.LibKeepdims
import Idealize.ShloMosaic.Lib.IdealHost

noncomputable section

namespace Cert.Attn.Ref

open Idealize.ShloMosaic Idealize.ShloMosaic.ValueIdx Cert.ReferenceIdeal Cert.ReferenceIdeal.Read

/-- Row `i` of the masked means. -/
def repRow (x0 : T4) (x1 : T2) (x2 : T1) (x3 : T2) (x4 : T1) (x5 : T2) (x6 : T1) (i : Fin 8) : Fin 1024 → EReal :=
  fun p => val_main_v40 (F := Ideal) x0 x1 x2 x3 x4 x5 x6 (ix2 i p)

/-- A reduce with a minimum body from +∞ over axis 1 of an [8, 1024] array, at row `i`, is the fold of `min` over
    the row. -/
theorem reduce_min_row (y : FVec Ideal S8x1024 .f32) (h' : S8x1024.ReducesTo [1] S8) (hu : 0 < S_.numel) (i : Fin 8) :
    Host.reduce FloatOps.minimumf y (constant (F := Ideal) S_ .f32 0x7F800000#32) h' hu (ix1 i)
      = rowMin fun p => y (ix2 i p) := by
  have hr : S8x1024.Reduces [1] S8 := ⟨h'.1, Nat.one_pos, h'.2⟩
  rw [Host.reduce_eq_fold_single FloatOps.minimumf y _ h' hr hu]
  have hf : (y ∘ hr.lift (ix1 i)) = fun p : Fin 1024 => y (ix2 i p) :=
    funext fun k => congrArg y (Cert.LibKeepdims.lift_row hr i k)
  exact congrArg (fun f => Finset.fold min (Ideal.ofBits .f32 0x7F800000#32) f (Finset.univ : Finset (Fin 1024))) hf

/-- A reduce with a maximum body from −∞ over axis 1 of an [8, 1024] array, at row `i`, is the fold of `max` over
    the row. -/
theorem reduce_max_row (y : FVec Ideal S8x1024 .f32) (h' : S8x1024.ReducesTo [1] S8) (hu : 0 < S_.numel) (i : Fin 8) :
    Host.reduce FloatOps.maximumf y (constant (F := Ideal) S_ .f32 0xFF800000#32) h' hu (ix1 i)
      = rowMax fun p => y (ix2 i p) := by
  have hr : S8x1024.Reduces [1] S8 := ⟨h'.1, Nat.one_pos, h'.2⟩
  rw [Host.reduce_eq_fold_single FloatOps.maximumf y _ h' hr hu]
  have hf : (y ∘ hr.lift (ix1 i)) = fun p : Fin 1024 => y (ix2 i p) :=
    funext fun k => congrArg y (Cert.LibKeepdims.lift_row hr i k)
  exact congrArg (fun f => Finset.fold max (Ideal.ofBits .f32 0xFF800000#32) f (Finset.univ : Finset (Fin 1024))) hf

/-- The row minimum of the masked means at image `i`. -/
theorem v41_at (x0 : T4) (x1 : T2) (x2 : T1) (x3 : T2) (x4 : T1) (x5 : T2) (x6 : T1) (i : Fin 8) :
    val_main_v41 (F := Ideal) x0 x1 x2 x3 x4 x5 x6 (ix1 i) = rowMin (repRow x0 x1 x2 x3 x4 x5 x6 i) :=
  reduce_min_row (val_main_v40 (F := Ideal) x0 x1 x2 x3 x4 x5 x6) _ _ i

/-- The row maximum of the masked means at image `i`. -/
theorem v43_at (x0 : T4) (x1 : T2) (x2 : T1) (x3 : T2) (x4 : T1) (x5 : T2) (x6 : T1) (i : Fin 8) :
    val_main_v43 (F := Ideal) x0 x1 x2 x3 x4 x5 x6 (ix1 i) = rowMax (repRow x0 x1 x2 x3 x4 x5 x6 i) :=
  reduce_max_row (val_main_v40 (F := Ideal) x0 x1 x2 x3 x4 x5 x6) _ _ i

/-- The min–max normalised row at `(i, p)`. -/
theorem v49_at (x0 : T4) (x1 : T2) (x2 : T1) (x3 : T2) (x4 : T1) (x5 : T2) (x6 : T1) (i : Fin 8) (p : Fin 1024) :
    val_main_v49 (F := Ideal) x0 x1 x2 x3 x4 x5 x6 (ix2 i p)
      = Ideal.div (repRow x0 x1 x2 x3 x4 x5 x6 i p - rowMin (repRow x0 x1 x2 x3 x4 x5 x6 i))
          (rowMax (repRow x0 x1 x2 x3 x4 x5 x6 i) - rowMin (repRow x0 x1 x2 x3 x4 x5 x6 i)) := by
  have e45 : idx_main_v42 (idx_main_v45 (ix2 i p)) = ix1 i := funext fun a => Fin.ext (by
    match a with | ⟨0, _⟩ => rfl)
  have e48 : idx_main_v48 (ix2 i p) = ix2 i (0 : Fin 1) := funext fun a => Fin.ext (by
    match a with | ⟨0, _⟩ => rfl | ⟨1, _⟩ => rfl)
  have e42 : idx_main_v42 (ix2 i (0 : Fin 1)) = ix1 i := funext fun a => Fin.ext (by
    match a with | ⟨0, _⟩ => rfl)
  have e44 : idx_main_v44 (ix2 i (0 : Fin 1)) = ix1 i := funext fun a => Fin.ext (by
    match a with | ⟨0, _⟩ => rfl)
  rw [val_main_v49_apply, val_main_v46_apply, val_main_v45_apply, val_main_v42_apply, e45, val_main_v48_apply, e48,
    val_main_v47_apply, val_main_v44_apply, val_main_v42_apply, e42, e44, v41_at, v43_at]
  rfl

/-- THE GATE: the reference's result at `(i, p)` is the specification's `gate` of row `i` of the masked means. -/
theorem v59_at (x0 : T4) (x1 : T2) (x2 : T1) (x3 : T2) (x4 : T1) (x5 : T2) (x6 : T1) (i : Fin 8) (p : Fin 1024) :
    val_main_v59 (F := Ideal) x0 x1 x2 x3 x4 x5 x6 (ix2 i p) = gate (repRow x0 x1 x2 x3 x4 x5 x6 i) p := by
  rw [val_main_v59_apply, val_main_v58_apply, val_main_cst_11_apply, val_main_v57_apply, val_main_v56_apply,
    val_main_cst_10_apply, val_main_v55_apply, val_main_v54_apply, val_main_v53_apply, val_main_v52_apply,
    val_main_cst_9_apply, val_main_v51_apply, val_main_v50_apply, val_main_cst_8_apply, v49_at]
  simp only [Ideal.ofBits_def, Ideal.ofBits_one_f32]
  rfl

end Cert.Attn.Ref

end
-- ==== Proof.RefApply.lean ====
/-
  The reference's result is the specification's `outRef`.

  Row `i` of the masked means is `repRef` of the query and key projections of the residual convolution, and the
  reference's result at image `i`, pixel `p` is the gate of that row at `p`.
-/
import proofs.«151920_j3161095930112_2_alg».proof.Proof.RefRep
import proofs.«151920_j3161095930112_2_alg».proof.Proof.RefGate

noncomputable section

namespace Cert.Attn.Ref

open Idealize.ShloMosaic Idealize.ShloMosaic.ValueIdx Cert.ReferenceIdeal Cert.ReferenceIdeal.Read

/-- THE REFERENCE AT AN INDEX: its result at image `i`, pixel `p` is `outRef` of the seven arguments there. -/
theorem ref_apply (x0 : T4) (x1 : T2) (x2 : T1) (x3 : T2) (x4 : T1) (x5 : T2) (x6 : T1) (i : Fin 8) (p : Fin 1024) :
    Cert.ReferenceIdeal.Read.val_main_v59 (F := Ideal) x0 x1 x2 x3 x4 x5 x6 (ValueIdx.ix2 i p)
      = Cert.Attn.outRef x0 x1 x2 x3 x4 x5 x6 i p := by
  have e : repRow x0 x1 x2 x3 x4 x5 x6 i
      = repRef (conv (resid x0 x1 x2) x3 x4) (conv (resid x0 x1 x2) x5 x6) (Ideal.ofBits .f32 0x3D3504F3#32) (Ideal.ofBits .f32 0x45E00000#32) i :=
    funext fun p' => v40_at x0 x1 x2 x3 x4 x5 x6 i p'
  rw [v59_at, e]
  rfl

end Cert.Attn.Ref

end
-- ==== Proof.AlgCoe.lean ====
/-
  Coercions of finite real sums into the extended reals, and the real-valued forms of the pixel read, the
  1×1 convolution and the residual convolution: when every entry of the operands is (the coercion of) a real,
  so is every entry of the result, and it is given by the same formula read over ℝ.
-/
import proofs.«151920_j3161095930112_2_alg».proof.Proof.Spec

noncomputable section

namespace Cert.Attn.Alg

open Idealize.ShloMosaic Idealize.ShloMosaic.ValueIdx

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real arrays: a value per image, pixel and channel; a weight matrix; a bias; the image batch. -/
abbrev PixR : Type := Fin 8 → Fin 1024 → Fin 512 → ℝ
abbrev R4 : Type := (⟨4, ![8, 32, 32, 512]⟩ : Shape).Idx → ℝ
abbrev R2 : Type := (⟨2, ![512, 512]⟩ : Shape).Idx → ℝ
abbrev R1 : Type := (⟨1, ![512]⟩ : Shape).Idx → ℝ

/-- The coercion of a real array, entry by entry. -/
def cPix (U : PixR) : Pix := fun i p c => (U i p c : EReal)

/-- The real forms of `pix`, `conv` and `resid`. -/
def pixR (X : R4) : PixR := fun i p c => X (ix4 i (prow p) (pcol p) c)
def convR (U : PixR) (W : R2) (B : R1) : PixR := fun i p o => (∑ c : Fin 512, U i p c * W (ix2 o c)) + B (ix1 o)
def residR (X : R4) (CW : R2) (CB : R1) : PixR := fun i p o => convR (pixR X) CW CB i p o + pixR X i p o

theorem pix_coe (X : R4) : pix (fun j => (X j : EReal)) = cPix (pixR X) := rfl

theorem conv_coe (U : PixR) (W : R2) (B : R1) :
    conv (cPix U) (fun j => (W j : EReal)) (fun j => (B j : EReal)) = cPix (convR U W B) := by
  funext i p o
  simp only [conv, cPix, convR]
  rw [EReal.coe_add, coe_sum]
  simp only [EReal.coe_mul]

theorem resid_coe (X : R4) (CW : R2) (CB : R1) :
    resid (fun j => (X j : EReal)) (fun j => (CW j : EReal)) (fun j => (CB j : EReal)) = cPix (residR X CW CB) := by
  funext i p o
  simp only [resid, pix_coe, conv_coe]
  simp only [cPix, residR, EReal.coe_add]

end Cert.Attn.Alg

end
-- ==== Proof.AlgWords.lean ====
/-
  The float words the two programs spell, as the extended reals their patterns denote: the scale
  `0x36CEE116` of the kernel and the scale `0x3D3504F3` of the reference are positive reals, the reference's
  divisor `0x45E00000` is the real 7168, and the two fold seeds `0x7F800000`, `0xFF800000` are +∞ and −∞.
-/
import Idealize.ShloMosaic.PureOps.Ideal

noncomputable section

namespace Cert.Attn.Alg

open Idealize.ShloMosaic

/-- The kernel's scale is a positive real. -/
theorem scaleK_pos : ∃ c : ℝ, 0 < c ∧ Ideal.ofBits .f32 0x36CEE116#32 = (c : EReal) := by
  refine ⟨((2 ^ 23 + 0x4EE116 : ℕ) : ℝ) * (2 : ℝ) ^ ((109 : ℤ) - 127 - 23), by positivity, ?_⟩
  simp [Ideal.ofBits, Ideal.ieee, -EReal.coe_mul]

/-- The reference's scale is a positive real. -/
theorem scaleR_pos : ∃ d : ℝ, 0 < d ∧ Ideal.ofBits .f32 0x3D3504F3#32 = (d : EReal) := by
  refine ⟨((2 ^ 23 + 0x3504F3 : ℕ) : ℝ) * (2 : ℝ) ^ ((122 : ℤ) - 127 - 23), by positivity, ?_⟩
  simp [Ideal.ofBits, Ideal.ieee, -EReal.coe_mul]

/-- The reference's divisor is the real 7168. -/
theorem ofBits_7168 : Ideal.ofBits .f32 0x45E00000#32 = ((7168 : ℝ) : EReal) := by
  simp [Ideal.ofBits, Ideal.ieee, -EReal.coe_mul]; norm_num

/-- The seed of the minimum fold is +∞. -/
theorem ofBits_posInf : Ideal.ofBits .f32 0x7F800000#32 = (⊤ : EReal) := by
  simp [Ideal.ofBits, Ideal.ieee]

/-- The seed of the maximum fold is −∞. -/
theorem ofBits_negInf : Ideal.ofBits .f32 0xFF800000#32 = (⊥ : EReal) := by
  simp [Ideal.ofBits, Ideal.ieee]

end Cert.Attn.Alg

end
-- ==== Proof.AlgGate.lean ====
/-
  The min–max normalisation is invariant under a positive scale: for a row `w` of reals and `a > 0`,
  `gate (a · w) = gate w`.  The minimum (maximum) of a row of reals, folded from +∞ (−∞), is the entry at any
  position where the row is least (greatest); scaling by `a > 0` keeps such a position; and the quotient
  `(a·u) / (a·v)` equals `u / v`, also at `v = 0`, where the quotient is +∞ or −∞ by the sign of the
  numerator, which `a > 0` does not change.
-/
import proofs.«151920_j3161095930112_2_alg».proof.Proof.Spec
import proofs.«151920_j3161095930112_2_alg».proof.Proof.AlgWords

noncomputable section

namespace Cert.Attn.Alg

open Idealize.ShloMosaic

/-- The quotient of two reals is unchanged when both are scaled by the same positive real, the zero divisor
    included. -/
theorem div_scale (a u v : ℝ) (ha : 0 < a) :
    Ideal.div ((a * u : ℝ) : EReal) ((a * v : ℝ) : EReal) = Ideal.div (u : EReal) (v : EReal) := by
  unfold Ideal.div
  by_cases hv : v = 0
  · subst hv
    have h1 : (0 : EReal) < ((a * u : ℝ) : EReal) ↔ (0 : EReal) < (u : EReal) := by
      rw [EReal.coe_pos, EReal.coe_pos]
      exact mul_pos_iff_of_pos_left ha
    simp only [mul_zero, EReal.coe_zero, if_true, h1]
  · have hav : a * v ≠ 0 := mul_ne_zero ha.ne' hv
    have h1 : ((a * v : ℝ) : EReal) ≠ 0 := by exact_mod_cast hav
    have h2 : ((v : ℝ) : EReal) ≠ 0 := by exact_mod_cast hv
    rw [if_neg h1, if_neg h2, ← EReal.coe_inv, ← EReal.coe_inv, ← EReal.coe_mul, ← EReal.coe_mul]
    congr 1
    field_simp

/-- The minimum of a row of reals is its entry at a position where the row is least. -/
theorem rowMin_coe (w : Fin 1024 → ℝ) (q : Fin 1024) (hq : ∀ r, w q ≤ w r) :
    rowMin (fun r => (w r : EReal)) = (w q : EReal) := by
  unfold rowMin
  rw [ofBits_posInf]
  apply le_antisymm
  · exact (Finset.fold_min_le _).2 (Or.inr ⟨q, Finset.mem_univ q, le_rfl⟩)
  · exact (Finset.le_fold_min _).2 ⟨le_top, fun r _ => EReal.coe_le_coe_iff.2 (hq r)⟩

/-- The maximum of a row of reals is its entry at a position where the row is greatest. -/
theorem rowMax_coe (w : Fin 1024 → ℝ) (q : Fin 1024) (hq : ∀ r, w r ≤ w q) :
    rowMax (fun r => (w r : EReal)) = (w q : EReal) := by
  unfold rowMax
  rw [ofBits_negInf]
  apply le_antisymm
  · exact (Finset.fold_max_le _).2 ⟨bot_le, fun r _ => EReal.coe_le_coe_iff.2 (hq r)⟩
  · exact (Finset.le_fold_max _).2 (Or.inr ⟨q, Finset.mem_univ q, le_rfl⟩)

/-- The gate of a row of reals does not see a positive scale of the row. -/
theorem gate_scale (w : Fin 1024 → ℝ) (a : ℝ) (ha : 0 < a) (p : Fin 1024) :
    gate (fun r => ((a * w r : ℝ) : EReal)) p = gate (fun r => ((w r : ℝ) : EReal)) p := by
  obtain ⟨q, -, hq⟩ := Finset.exists_min_image (Finset.univ : Finset (Fin 1024)) w ⟨p, Finset.mem_univ p⟩
  obtain ⟨t, -, ht⟩ := Finset.exists_max_image (Finset.univ : Finset (Fin 1024)) w ⟨p, Finset.mem_univ p⟩
  have hq' : ∀ r, w q ≤ w r := fun r => hq r (Finset.mem_univ r)
  have ht' : ∀ r, w r ≤ w t := fun r => ht r (Finset.mem_univ r)
  have e1 : rowMin (fun r => ((a * w r : ℝ) : EReal)) = ((a * w q : ℝ) : EReal) :=
    rowMin_coe (fun r => a * w r) q (fun r => mul_le_mul_of_nonneg_left (hq' r) ha.le)
  have e2 : rowMax (fun r => ((a * w r : ℝ) : EReal)) = ((a * w t : ℝ) : EReal) :=
    rowMax_coe (fun r => a * w r) t (fun r => mul_le_mul_of_nonneg_left (ht' r) ha.le)
  have e3 : rowMin (fun r => ((w r : ℝ) : EReal)) = ((w q : ℝ) : EReal) := rowMin_coe w q hq'
  have e4 : rowMax (fun r => ((w r : ℝ) : EReal)) = ((w t : ℝ) : EReal) := rowMax_coe w t ht'
  unfold gate
  rw [e1, e2, e3, e4]
  simp only [← EReal.coe_sub, ← mul_sub]
  rw [div_scale a _ _ ha]

end Cert.Attn.Alg

end
-- ==== Proof.AlgRep.lean ====
/-
  The two contractions as one real quantity up to a scale.  For real arrays `Q`, `K` put
  `W i p = Σ_o Q i p o · (Σ_j Σ_r K j r o − Σ_r K i r o)`.  The reference's masked mean of block sums is
  `d · n⁻¹ · W i p` (sums exchanged, the scale and the divisor pulled out), and the kernel's contraction of the
  residual with the folded query weights is `c · W i p` for `Q = xr · qwᵀ + qb`, because
  `Σ_c (Σ_o kd o · qw o c) · xr c + Σ_o kd o · qb o = Σ_o (Σ_c xr c · qw o c + qb o) · kd o`.
-/
import proofs.«151920_j3161095930112_2_alg».proof.Proof.Spec
import proofs.«151920_j3161095930112_2_alg».proof.Proof.AlgCoe

noncomputable section

namespace Cert.Attn.Alg

open Idealize.ShloMosaic Idealize.ShloMosaic.ValueIdx

/-- The common real quantity: the query row against the keys of all other images, summed. -/
def Wr (Q K : PixR) (i : Fin 8) (p : Fin 1024) : ℝ :=
  ∑ o : Fin 512, Q i p o * ((∑ j : Fin 8, ∑ r : Fin 1024, K j r o) - ∑ r : Fin 1024, K i r o)

/-- A block sum over reals: the scale comes out and the two sums exchange. -/
theorem blockSum_real {ρ ω : Type*} [Fintype ρ] [Fintype ω] (g : ω → ℝ) (f : ρ → ω → ℝ) (d : ℝ) :
    ∑ r, (∑ o, g o * f r o) * d = d * ∑ o, g o * ∑ r, f r o := by
  rw [← Finset.sum_mul, Finset.sum_comm, mul_comm]
  congr 1
  exact Finset.sum_congr rfl fun o _ => (Finset.mul_sum _ _ _).symm

/-- Folding the query weights into the key difference first, or contracting the residual first, is the same. -/
theorem contract_real {ω γ : Type*} [Fintype ω] [Fintype γ] (kd : ω → ℝ) (A : ω → γ → ℝ) (u : γ → ℝ) (b : ω → ℝ) :
    (∑ c, (∑ o, kd o * A o c) * u c) + ∑ o, kd o * b o = ∑ o, (∑ c, u c * A o c + b o) * kd o := by
  simp only [Finset.sum_mul, add_mul, Finset.sum_add_distrib]
  rw [Finset.sum_comm]
  congr 1
  · exact Finset.sum_congr rfl fun o _ => Finset.sum_congr rfl fun c _ => by ring
  · exact Finset.sum_congr rfl fun o _ => by ring

/-- The reference's masked mean over reals. -/
theorem repRef_real (Q K : PixR) (d n : ℝ) (i : Fin 8) (p : Fin 1024) :
    ((∑ j : Fin 8, ∑ r : Fin 1024, (∑ o : Fin 512, Q i p o * K j r o) * d)
        - ∑ r : Fin 1024, (∑ o : Fin 512, Q i p o * K i r o) * d) * (1 / n) = d * n⁻¹ * Wr Q K i p := by
  have h1 : ∑ j : Fin 8, ∑ r : Fin 1024, (∑ o : Fin 512, Q i p o * K j r o) * d
      = d * ∑ o : Fin 512, Q i p o * ∑ j : Fin 8, ∑ r : Fin 1024, K j r o := by
    simp only [blockSum_real]
    rw [← Finset.mul_sum, Finset.sum_comm]
    simp only [← Finset.mul_sum]
  have h2 : ∑ r : Fin 1024, (∑ o : Fin 512, Q i p o * K i r o) * d
      = d * ∑ o : Fin 512, Q i p o * ∑ r : Fin 1024, K i r o :=
    blockSum_real (fun o => Q i p o) (fun r o => K i r o) d
  rw [h1, h2]
  unfold Wr
  simp only [mul_sub, Finset.sum_sub_distrib]
  ring

/-- The kernel's contraction over reals. -/
theorem repKer_real (U K : PixR) (QW : R2) (QB : R1) (c : ℝ) (i : Fin 8) (p : Fin 1024) :
    (∑ c' : Fin 512, (∑ o : Fin 512,
          ((∑ j : Fin 8, ∑ r : Fin 1024, K j r o) - ∑ r : Fin 1024, K i r o) * QW (ix2 o c')) * U i p c') * c
      + (∑ o : Fin 512, ((∑ j : Fin 8, ∑ r : Fin 1024, K j r o) - ∑ r : Fin 1024, K i r o) * QB (ix1 o)) * c
      = c * Wr (convR U QW QB) K i p := by
  rw [← add_mul,
    contract_real (fun o => (∑ j : Fin 8, ∑ r : Fin 1024, K j r o) - ∑ r : Fin 1024, K i r o)
      (fun o c' => QW (ix2 o c')) (fun c' => U i p c') (fun o => QB (ix1 o)), mul_comm]
  rfl

/-- The reference's masked mean of real arrays, with a real scale and a nonzero real divisor. -/
theorem repRef_coe (Q K : PixR) (d n : ℝ) (hn : n ≠ 0) (i : Fin 8) (p : Fin 1024) :
    repRef (cPix Q) (cPix K) (d : EReal) (n : EReal) i p = ((d * n⁻¹ * Wr Q K i p : ℝ) : EReal) := by
  rw [← repRef_real Q K d n i p]
  unfold repRef blockSum
  rw [Ideal.div_coe hn]
  simp only [cPix, ← EReal.coe_mul, ← coe_sum, ← EReal.coe_sub]

/-- The kernel's contraction of real arrays, with a real scale. -/
theorem repKer_coe (U K : PixR) (QW : R2) (QB : R1) (c : ℝ) (i : Fin 8) (p : Fin 1024) :
    repKer (cPix U) (cPix K) (fun j => (QW j : EReal)) (fun j => (QB j : EReal)) (c : EReal) i p
      = ((c * Wr (convR U QW QB) K i p : ℝ) : EReal) := by
  rw [← repKer_real U K QW QB c i p]
  unfold repKer kdiff ksum
  simp only [cPix, ← EReal.coe_mul, ← coe_sum, ← EReal.coe_sub, ← EReal.coe_add]

end Cert.Attn.Alg

end
-- ==== Proof.AlgOut.lean ====
/-
  The kernel's and the reference's results agree on real inputs.  With every input entry a real, the residual
  convolution `xr`, its key projection `k` and its query projection `q` are real arrays; the kernel's row is
  `c · W` and the reference's row is `d · 7168⁻¹ · W` for the same real row `W` and two positive reals; and
  the gate does not see a positive scale.
-/
import proofs.«151920_j3161095930112_2_alg».proof.Proof.Spec
import proofs.«151920_j3161095930112_2_alg».proof.Proof.AlgCoe
import proofs.«151920_j3161095930112_2_alg».proof.Proof.AlgWords
import proofs.«151920_j3161095930112_2_alg».proof.Proof.AlgGate
import proofs.«151920_j3161095930112_2_alg».proof.Proof.AlgRep

noncomputable section

namespace Cert.Attn.Alg

open Idealize.ShloMosaic Idealize.ShloMosaic.ValueIdx

/-- On real inputs the kernel's gate row equals the reference's, entry by entry. -/
theorem out_eq (x : T4) (cw : T2) (cb : T1) (qw : T2) (qb : T1) (kw : T2) (kb : T1)
    (hx : ∀ j, ∃ r : ℝ, x j = (r : EReal)) (hcw : ∀ j, ∃ r : ℝ, cw j = (r : EReal))
    (hcb : ∀ j, ∃ r : ℝ, cb j = (r : EReal))
    (hqw : ∀ j, ∃ r : ℝ, qw j = (r : EReal)) (hqb : ∀ j, ∃ r : ℝ, qb j = (r : EReal))
    (hkw : ∀ j, ∃ r : ℝ, kw j = (r : EReal)) (hkb : ∀ j, ∃ r : ℝ, kb j = (r : EReal))
    (i : Fin 8) (p : Fin 1024) :
    outKer x cw cb qw qb kw kb i p = outRef x cw cb qw qb kw kb i p := by
  choose X hX using hx
  choose CW hCW using hcw
  choose CB hCB using hcb
  choose QW hQW using hqw
  choose QB hQB using hqb
  choose KW hKW using hkw
  choose KB hKB using hkb
  obtain rfl : x = fun j => (X j : EReal) := funext hX
  obtain rfl : cw = fun j => (CW j : EReal) := funext hCW
  obtain rfl : cb = fun j => (CB j : EReal) := funext hCB
  obtain rfl : qw = fun j => (QW j : EReal) := funext hQW
  obtain rfl : qb = fun j => (QB j : EReal) := funext hQB
  obtain rfl : kw = fun j => (KW j : EReal) := funext hKW
  obtain rfl : kb = fun j => (KB j : EReal) := funext hKB
  obtain ⟨c, hc, hC⟩ := scaleK_pos
  obtain ⟨d, hd, hD⟩ := scaleR_pos
  unfold outKer outRef
  rw [hC, hD, ofBits_7168, resid_coe]
  generalize residR X CW CB = XR
  rw [conv_coe, conv_coe]
  generalize convR XR KW KB = KK
  have hK : repKer (cPix XR) (cPix KK) (fun j => (QW j : EReal)) (fun j => (QB j : EReal)) (c : EReal) i
      = fun r => ((c * Wr (convR XR QW QB) KK i r : ℝ) : EReal) :=
    funext fun r => repKer_coe XR KK QW QB c i r
  have hR : repRef (cPix (convR XR QW QB)) (cPix KK) (d : EReal) ((7168 : ℝ) : EReal) i
      = fun r => ((d * (7168 : ℝ)⁻¹ * Wr (convR XR QW QB) KK i r : ℝ) : EReal) :=
    funext fun r => repRef_coe (convR XR QW QB) KK d 7168 (by norm_num) i r
  rw [hK, hR, gate_scale _ c hc, gate_scale _ (d * (7168 : ℝ)⁻¹) (by positivity)]

end Cert.Attn.Alg

end
-- ==== Proof.Finite.lean ====
/-
  Finiteness from the precondition.  The precondition and-s together, for each of the seven arguments, the
  statement "every entry `v` has `|v| < +∞`" (an `and`-reduction over all axes of the entrywise comparison).
  If the conjunction is 1 then each reduction is 1, hence each entrywise comparison is 1 at every index; and an
  extended real `v` with `max v (−v) < ⊤` is neither `⊤` nor `⊥`, so it is (the coercion of) a real.
-/
import proofs.«151920_j3161095930112_2_alg».proof.Proof.Gen.Pre_finite_inputs
import proofs.«151920_j3161095930112_2_alg».proof.Proof.Spec
import proofs.«151920_j3161095930112_2_alg».proof.Proof.AlgWords
import Idealize.ShloMosaic.Lib.ReduceAll
import Idealize.ShloMosaic.Lib.Affine
import Idealize.ShloMosaic.PureOps.Ideal

noncomputable section

namespace Cert.Attn.Finite

open Idealize.ShloMosaic

/-- A one-bit word made from a Boolean is 1 exactly when the Boolean is true. -/
theorem ofBool_eq_one {b : Bool} : BitVec.ofBool b = 1#1 ↔ b = true := by cases b <;> decide

/-- An extended real whose absolute value compares below +∞ is a real. -/
theorem real_of_abs_lt (v : EReal)
    (h : Ideal.cmp .olt (max v (-v)) (Ideal.ofBits .f32 0x7F800000#32) = 1#1) : ∃ r : ℝ, v = (r : EReal) := by
  rw [Cert.Attn.Alg.ofBits_posInf] at h
  have h' : max v (-v) < ⊤ := by
    simpa only [Ideal.cmp, ofBool_eq_one, decide_eq_true_eq] using h
  induction v using EReal.rec with
  | bot => simp at h'
  | coe r => exact ⟨r, rfl⟩
  | top => simp at h'

/-- The scalar index set is a subsingleton. -/
instance subsingleton_scalarIdx : Subsingleton Cert.Pre_finite_inputs.S_.Idx := ⟨fun a b => funext fun d => d.elim0⟩

/-- One `all(|x| < +∞)`: if the and-reduction over all axes is 1, every entry of `x` is a real. -/
theorem real_of_all {S T U V : Shape} [Subsingleton T.Idx] {axes : List (Fin S.rank)}
    {dims : Fin V.rank → Fin S.rank} (hb : V.BroadcastsInDim S dims) (hr : S.ReducesTo axes T) (hu : 0 < U.numel)
    (x : FVec Ideal S .f32) (init : IVec U 1) (j : T.Idx)
    (e : Host.reduce IntOp.andi
        (cmpf .olt (Host.absf x) (broadcastInDim S dims hb (constant (F := Ideal) V .f32 0x7F800000#32))) init hr hu j
      = 1#1)
    (i : S.Idx) : ∃ r : ℝ, x i = (r : EReal) :=
  real_of_abs_lt (x i) (Host.reduce_andi_all _ init hr hu j e i)

/-- The precondition makes every entry of every argument a real. -/
theorem finite_of_pre (a0 : Cert.Attn.T4) (a1 : Cert.Attn.T2) (a2 : Cert.Attn.T1) (a3 : Cert.Attn.T2)
    (a4 : Cert.Attn.T1) (a5 : Cert.Attn.T2) (a6 : Cert.Attn.T1)
    (h : Cert.Pre_finite_inputs.fn (F := Ideal) a0 a1 a2 a3 a4 a5 a6 = fun _ => 1#1) :
    (∀ j, ∃ r : ℝ, a0 j = (r : EReal)) ∧ (∀ j, ∃ r : ℝ, a1 j = (r : EReal)) ∧ (∀ j, ∃ r : ℝ, a2 j = (r : EReal))
      ∧ (∀ j, ∃ r : ℝ, a3 j = (r : EReal)) ∧ (∀ j, ∃ r : ℝ, a4 j = (r : EReal))
      ∧ (∀ j, ∃ r : ℝ, a5 j = (r : EReal)) ∧ (∀ j, ∃ r : ℝ, a6 j = (r : EReal)) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨⟨⟨⟨e0, e1⟩, e2⟩, e3⟩, e4⟩, e5⟩, e6⟩ := h0
  exact ⟨real_of_all _ _ _ a0 _ _ e0, real_of_all _ _ _ a1 _ _ e1, real_of_all _ _ _ a2 _ _ e2,
    real_of_all _ _ _ a3 _ _ e3, real_of_all _ _ _ a4 _ _ e4, real_of_all _ _ _ a5 _ _ e5,
    real_of_all _ _ _ a6 _ _ e6⟩

end Cert.Attn.Finite

end
-- ==== Proof.Claims.lean ====
/-
  The five claims of the certificate, assembled.

  The three frame claims are the programs' runs with the result forgotten. The idealization rewrote no operation, so
  the claim that it preserves the program is trivial. For the algebraic claim both programs end with ONE array: the
  kernel program's run names its result `resultOf` of the seven argument arrays (entry `(i, p)` is `outKer` there);
  the reference's run ends at its composed term of ITS arguments, which agree with the kernel's, and at image `i`,
  pixel `p` that term is `outRef`. The precondition makes every argument entry a real number, and on real inputs
  `outKer = outRef`: summing the keys of each image first and contracting once gives the same masked mean as
  the full affinity's block sums, and the same gate follows.
-/
import proofs.«151920_j3161095930112_2_alg».proof.Defs
import proofs.«151920_j3161095930112_2_alg».proof.Proof.Gen.Kernel.Frame
import proofs.«151920_j3161095930112_2_alg».proof.Proof.Gen.KernelIdeal.Frame
import proofs.«151920_j3161095930112_2_alg».proof.Proof.Gen.ReferenceIdeal.Run
import proofs.«151920_j3161095930112_2_alg».proof.Proof.Gen.ReferenceIdeal.Read
import proofs.«151920_j3161095930112_2_alg».proof.Proof.Gen.Pre_finite_inputs
import proofs.«151920_j3161095930112_2_alg».proof.Proof.Result
import proofs.«151920_j3161095930112_2_alg».proof.Proof.RefApply
import proofs.«151920_j3161095930112_2_alg».proof.Proof.AlgOut
import proofs.«151920_j3161095930112_2_alg».proof.Proof.Finite

noncomputable section

namespace Cert.Proof.Claims

open Idealize.ShloMosaic Idealize.ShloMosaic.TcCoe Idealize.SL.Sem Idealize.ShloMosaic.ValueIdx

/-- The kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- THE ALGEBRAIC CLAIM, from the kernel program's run with its result named `resultOf` of the argument arrays:
    the reference's run ends, from agreeing arguments, with the same array. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v19) = Cert.Attn.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))) :
    Cert.algebraic_KernelIdeal_ReferenceIdeal := by
  intro m ρ m' ρ' hpre hagree
  refine ⟨fun c => Cert.Attn.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), hrun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2.1, (hagree c).2.2.2.1, (hagree c).2.2.2.2.1, (hagree c).2.2.2.2.2.1, (hagree c).2.2.2.2.2.2]
  obtain ⟨h0, h1, h2, h3, h4, h5, h6⟩ := Cert.Attn.Finite.finite_of_pre _ _ _ _ _ _ _ (hpre c)
  refine funext fun j => ?_
  obtain ⟨i, p, rfl⟩ : ∃ (i : Fin 8) (p : Fin 1024), j = ix2 i p := ⟨j 0, j 1, eq_ix2 j⟩
  beta_reduce
  rw [Cert.Attn.Ref.ref_apply, Cert.Attn.resultOf_apply]
  exact (Cert.Attn.Alg.out_eq _ _ _ _ _ _ _ h0 h1 h2 h3 h4 h5 h6 i p).symm

end Cert.Proof.Claims

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibHostLayout.lean ====
/-
  Host layout operations of small rank read at an index.

  A reference written with keepdims and with a bias added along rows broadcasts in two steps: a vector `[a]` to a column
  `[a, 1]` and the column over the row `[a, b]`; a vector `[b]` to one row `[1, b]` and the row down the rows `[a, b]`. A
  leading block of rows is a slice at offset zero. Each is read here at an index built by `ix2`, in the style of the
  library's layout lemmas.
-/
import Idealize.ShloMosaic.Lib.Pipeline.Value
import Idealize.ShloMosaic.Lib.ValueIdx

noncomputable section

namespace Cert.LibHostLayout

open Idealize.ShloMosaic Idealize.ShloMosaic.ValueIdx

variable {α : Type}

/-- GENERAL LEMMA. An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply ![0] h x (ix2 p u) (ix1 p) fun ax => by
    match ax with
    | ⟨0, _⟩ =>
      show p.val = if a = 1 then 0 else p.val
      split
      · have := p.isLt; omega
      · rfl

/-- GENERAL LEMMA. An `[a, 1]` column broadcast in dimensions (0, 1) to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- GENERAL LEMMA. A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply ![1] h x (ix2 u c) (ix1 c) fun ax => by
    match ax with
    | ⟨0, _⟩ =>
      show c.val = if b = 1 then 0 else c.val
      split
      · have := c.isLt; omega
      · rfl

/-- GENERAL LEMMA. A `[1, b]` row broadcast in dimensions (0, 1) to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-- GENERAL LEMMA. The leading `m` rows of an `[n, b]` array, sliced at offset zero, read at `(p, c)` the array at `(p, c)`. -/
theorem slice_rows_apply {n m b : ℕ} (x : (⟨2, ![n, b]⟩ : Shape).Idx → α)
    (h : (⟨2, ![n, b]⟩ : Shape).Slices ![0, 0] ⟨2, ![m, b]⟩) (p : Fin m) (hp : p.val < n) (c : Fin b) :
    extractStridedSlice ⟨2, ![m, b]⟩ ![0, 0] x h (ix2 p c) = x (ix2 (⟨p.val, hp⟩ : Fin n) c) :=
  extractStridedSlice_apply ![0, 0] x h (ix2 p c) (ix2 (⟨p.val, hp⟩ : Fin n) c) fun ax => by
    match ax with
    | ⟨0, _⟩ => show p.val = 0 + p.val; omega
    | ⟨1, _⟩ => show c.val = 0 + c.val; omega

end Cert.LibHostLayout

end
-- ==== Proof.KerHost.lean ====
/-
  The host operations of the kernel's program, read at an index at the ideal values.

  Before the first kernel: the image batch `[8,32,32,512]` is reshaped to `[8,1024,512]` (pixel `p` is row `p / 32`,
  column `p % 32`), the two weight matrices are transposed, the two biases become rows `[1,512]`.
  Between the kernels, from the per-image key sums `S[i,0,o]`: the total over the eight images, the difference
  `D[i,o] = (Σ_j S[j,0,o]) − S[i,0,o]`, its product with the query weights `v[i,0,c] = Σ_o D[i,o]·qw[o,c]`, and its
  product with the query bias `b[i,0,0] = Σ_o D[i,o]·qb[o]`.
  After the second kernel: the result `[8,1,1024]` is reshaped to `[8,1024]`.
-/
import proofs.«151920_j3161095930112_2_alg».proof.Proof.Spec
import proofs.«151920_j3161095930112_2_alg».proof.Proof.LibDotSum
import proofs.«151920_j3161095930112_2_alg».proof.Proof.LibHostLayout
import proofs.«151920_j3161095930112_2_alg».proof.Proof.Gen.KernelIdeal
import Idealize.ShloMosaic.Lib.ValueLayout
import Idealize.ShloMosaic.Lib.Pipeline.Value
import Idealize.ShloMosaic.PureOps.Ideal.Laws

noncomputable section

namespace Cert.Attn.Host

open Cert.KernelIdeal Cert.KernelIdeal.Gen Cert.Attn
open Idealize.ShloMosaic Idealize.ShloMosaic.ValueIdx

/-! ## Before the first kernel -/

/-- The batch reshaped to `[8,1024,512]`, at image `i`, pixel `p`, channel `c`. -/
theorem reshape_x_apply (A0 : S8x32x32x512.Idx → EReal) (i : Fin 8) (p : Fin 1024) (c : Fin 512) :
    shapeCast S8x1024x512 A0 shapeCasts_S8x32x32x512_S8x1024x512 (ix3 i p c) = pix A0 i p c := by
  refine shapeCast_apply A0 _ (ix3 i p c) (ix4 i (prow p) (pcol p) c) ?_
  rw [Shape.rowMajor_val_four, Shape.rowMajor_val_three]
  show ((i.val * 32 + p.val / 32) * 32 + p.val % 32) * 512 + c.val = (i.val * 1024 + p.val) * 512 + c.val
  have := p.isLt
  omega

/-- A transposed weight matrix at `(c, o)` is the matrix at `(o, c)`. -/
theorem transpose_w_apply (A : S512x512.Idx → EReal) (c o : Fin 512) :
    transpose S512x512 [1, 0] A transposes_S512x512_S512x512_1_0 (ix2 c o) = A (ix2 o c) :=
  transpose_ix2_apply A _ c o

/-- A bias as a row, at `(0, o)`. -/
theorem row_b_apply (A : S512.Idx → EReal) (o : Fin 512) :
    shapeCast S1x512 A shapeCasts_S512_S1x512 (ix2 (0 : Fin 1) o) = A (ix1 o) :=
  shapeCast_a_1a_apply A _ 0 o

/-! ## Between the kernels -/

/-- The difference `D[i,o] = (Σ_j S[j,0,o]) − S[i,0,o]` as the host computes it from the key sums `S`. -/
def midDiff (S : S8x1x512.Idx → EReal) : S8x512.Idx → EReal :=
  shapeCast S8x512
    (subf (F := Ideal) (φ := .f32)
      (broadcastInDim S8x1x512 ![0, 1, 2] bcast_S1x1x512_S8x1x512_0_1_2
        (broadcastInDim S1x1x512 ![1, 2] bcast_S1x512_S1x1x512_1_2
          (Host.reduceAdd (F := Ideal) (φ := .f32) S (constant (F := Ideal) S_ .f32 0x00000000#32) reducesTo_S8x1x512_S1x512_d0 h_S_)))
      S)
    shapeCasts_S8x1x512_S8x512

/-- The second kernel's vector operand `v[i,0,c] = Σ_o D[i,o]·qw[o,c]`. -/
def midV (S : S8x1x512.Idx → EReal) (A3 : S512x512.Idx → EReal) : S8x1x512.Idx → EReal :=
  shapeCast S8x1x512 (Host.dotGeneral (F := Ideal) (φ₁ := .f32) (φ₂ := .f32) dot_S8x512_S512x512_S8x512_1_0_0_1_n_n none (midDiff S) A3) shapeCasts_S8x512_S8x1x512

/-- The second kernel's scalar operand `b[i,0,0] = Σ_o D[i,o]·qb[o]`. -/
def midB (S : S8x1x512.Idx → EReal) (A4 : S512.Idx → EReal) : S8x1x1.Idx → EReal :=
  shapeCast S8x1x1
    (Host.reduceAdd (F := Ideal) (φ := .f32)
      (mulf (F := Ideal) (φ := .f32) (midDiff S) (broadcastInDim S8x512 ![0, 1] bcast_S1x512_S8x512_0_1 (shapeCast S1x512 A4 shapeCasts_S512_S1x512)))
      (constant (F := Ideal) S_ .f32 0x00000000#32) reducesTo_S8x512_S8_d1 h_S_)
    shapeCasts_S8_S8x1x1

theorem midDiff_apply (S : S8x1x512.Idx → EReal) (i : Fin 8) (o : Fin 512) :
    midDiff S (ix2 i o) = (∑ j : Fin 8, S (ix3 j (0 : Fin 1) o)) - S (ix3 i (0 : Fin 1) o) := by
  unfold midDiff
  refine (shapeCast_apply _ shapeCasts_S8x1x512_S8x512 (ix2 i o) (ix3 i (0 : Fin 1) o) ?_).trans ?_
  · rw [Shape.rowMajor_val_three, Shape.rowMajor_val_two]
    show (i.val * 1 + 0) * 512 + o.val = i.val * 512 + o.val
    omega
  rw [subf_apply]
  refine congrArg (· - S (ix3 i (0 : Fin 1) o)) ?_
  refine (broadcastInDim_apply ![0, 1, 2] bcast_S1x1x512_S8x1x512_0_1_2 _ (ix3 i (0 : Fin 1) o) (ix3 (0 : Fin 1) (0 : Fin 1) o)
    (fun a => by match a with | ⟨0, _⟩ => rfl | ⟨1, _⟩ => rfl | ⟨2, _⟩ => rfl)).trans ?_
  refine (broadcastInDim_apply ![1, 2] bcast_S1x512_S1x1x512_1_2 _ (ix3 (0 : Fin 1) (0 : Fin 1) o) (ix2 (0 : Fin 1) o)
    (fun a => by match a with | ⟨0, _⟩ => rfl | ⟨1, _⟩ => rfl)).trans ?_
  simp only [Host.reduceAdd, Ideal.hostReduceAdd_def]
  rw [Ideal.hostReduceAdd_single reducesTo_S8x1x512_S1x512_d0 (by decide)]
  rw [constant_apply, Ideal.ofBits_zero_f32, zero_add]
  refine Finset.sum_congr rfl fun k _ => ?_
  exact congrArg S (funext fun a => Fin.ext (by match a with | ⟨0, _⟩ => rfl | ⟨1, _⟩ => rfl | ⟨2, _⟩ => rfl))

theorem midV_apply (S : S8x1x512.Idx → EReal) (A3 : S512x512.Idx → EReal) (i : Fin 8) (c : Fin 512) :
    midV S A3 (ix3 i (0 : Fin 1) c) = ∑ o : Fin 512, midDiff S (ix2 i o) * A3 (ix2 o c) := by
  unfold midV
  refine (shapeCast_apply _ shapeCasts_S8x512_S8x1x512 (ix3 i (0 : Fin 1) c) (ix2 i c) ?_).trans ?_
  · rw [Shape.rowMajor_val_three, Shape.rowMajor_val_two]
    show i.val * 512 + c.val = (i.val * 1 + 0) * 512 + c.val
    omega
  simp only [Host.dotGeneral]
  rw [Ideal.dotGeneral_apply]
  exact Cert.LibDotSum.sum_contr_eq_sum_fin dot_S8x512_S512x512_S8x512_1_0_0_1_n_n rfl rfl
    (fun j k => by
      unfold DotDims.lhsIdx
      rw [dif_neg (show ¬(0 : Fin S8x512.rank) ∈ dot_S8x512_S512x512_S8x512_1_0_0_1_n_n.lhsBatch by decide), dif_pos (show (0 : Fin S8x512.rank) ∈ dot_S8x512_S512x512_S8x512_1_0_0_1_n_n.lhsNonContracting by decide)]
      rfl)
    (fun j k => dot_S8x512_S512x512_S8x512_1_0_0_1_n_n.lhsIdx_val_of_single rfl j k)
    (fun j k => dot_S8x512_S512x512_S8x512_1_0_0_1_n_n.rhsIdx_val_of_single rfl j k)
    (fun j k => by
      unfold DotDims.rhsIdx
      rw [dif_neg (show ¬(1 : Fin S512x512.rank) ∈ dot_S8x512_S512x512_S8x512_1_0_0_1_n_n.rhsBatch by decide), dif_pos (show (1 : Fin S512x512.rank) ∈ dot_S8x512_S512x512_S8x512_1_0_0_1_n_n.rhsNonContracting by decide)]
      rfl)
    (midDiff S) A3 (ix2 i c)

theorem midB_apply (S : S8x1x512.Idx → EReal) (A4 : S512.Idx → EReal) (i : Fin 8) :
    midB S A4 (ix3 i (0 : Fin 1) (0 : Fin 1)) = ∑ o : Fin 512, midDiff S (ix2 i o) * A4 (ix1 o) := by
  unfold midB
  refine (shapeCast_apply _ shapeCasts_S8_S8x1x1 (ix3 i (0 : Fin 1) (0 : Fin 1)) (ix1 i) ?_).trans ?_
  · rw [Shape.rowMajor_val_three, Shape.rowMajor_val_one]
    show i.val = (i.val * 1 + 0) * 1 + 0
    omega
  simp only [Host.reduceAdd, Ideal.hostReduceAdd_def]
  rw [Ideal.hostReduceAdd_single reducesTo_S8x512_S8_d1 (by decide)]
  rw [constant_apply, Ideal.ofBits_zero_f32, zero_add]
  refine Finset.sum_congr rfl fun k _ => ?_
  have e : (Shape.Reduces.lift (by decide : S8x512.Reduces [1] S8) (ix1 i) k) = ix2 i (⟨k.val, k.isLt⟩ : Fin 512) :=
    funext fun a => Fin.ext (by match a with | ⟨0, _⟩ => rfl | ⟨1, _⟩ => rfl)
  rw [e, mulf_apply]
  refine congrArg (midDiff S (ix2 i (⟨k.val, k.isLt⟩ : Fin 512)) * ·) ?_
  refine (Cert.LibHostLayout.broadcastInDim_1b_ab_apply _ bcast_S1x512_S8x512_0_1 i (⟨k.val, k.isLt⟩ : Fin 512)).trans ?_
  exact shapeCast_a_1a_apply A4 _ 0 _

end Cert.Attn.Host

end
-- ==== Proof.KerEntry.lean ====
/-
  What the first kernel's region finds in its arrays, and what each of its windows' blocks holds at a grid point.

  The region is entered after the first stretch of host operations: window 0's array is the batch reshaped to
  `[8,1024,512]`, windows 1 and 3 the transposed convolution and key weights, windows 2 and 4 the two biases as rows.
  The grid has one point per image; at point `t` window 0's block is image `t` (block index `(t,0,0)`), the weights'
  and biases' blocks are the whole arrays (block index zero).
-/
import proofs.«151920_j3161095930112_2_alg».proof.Proof.KerHost
import proofs.«151920_j3161095930112_2_alg».proof.Proof.Gen.KernelIdeal.Frame
import Idealize.ShloMosaic.Lib.StableHlo.Run

set_option maxRecDepth 16384

noncomputable section

namespace Cert.Attn.Entry

open Cert.KernelIdeal Cert.KernelIdeal.Gen Cert.Attn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The region-entry contents -/

theorem V1_v0 (c : Dev nD) : (V1 m ρ c main_v0 : S8x1024x512.Idx → EReal)
    = shapeCast S8x1024x512 (m ((c : Thread nD τ).loc main_arg0)) shapeCasts_S8x32x32x512_S8x1024x512 := by
  show StableHlo.after hostOps0 (W0 m ρ c) (Proc.devRef .tc main_v0) = _
  after_results <;> rfl

theorem V1_v1 (c : Dev nD) : (V1 m ρ c main_v1 : S512x512.Idx → EReal)
    = transpose S512x512 [1, 0] (m ((c : Thread nD τ).loc main_arg1)) transposes_S512x512_S512x512_1_0 := by
  show StableHlo.after hostOps0 (W0 m ρ c) (Proc.devRef .tc main_v1) = _
  after_results <;> rfl

theorem V1_v2 (c : Dev nD) : (V1 m ρ c main_v2 : S512x512.Idx → EReal)
    = transpose S512x512 [1, 0] (m ((c : Thread nD τ).loc main_arg5)) transposes_S512x512_S512x512_1_0 := by
  show StableHlo.after hostOps0 (W0 m ρ c) (Proc.devRef .tc main_v2) = _
  after_results <;> rfl

theorem V1_v3 (c : Dev nD) : (V1 m ρ c main_v3 : S1x512.Idx → EReal)
    = shapeCast S1x512 (m ((c : Thread nD τ).loc main_arg2)) shapeCasts_S512_S1x512 := by
  show StableHlo.after hostOps0 (W0 m ρ c) (Proc.devRef .tc main_v3) = _
  after_results <;> rfl

theorem V1_v4 (c : Dev nD) : (V1 m ρ c main_v4 : S1x512.Idx → EReal)
    = shapeCast S1x512 (m ((c : Thread nD τ).loc main_arg6)) shapeCasts_S512_S1x512 := by
  show StableHlo.after hostOps0 (W0 m ρ c) (Proc.devRef .tc main_v4) = _
  after_results <;> rfl

/-! ## The block indices, decided over the eight grid points -/

theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- Grid point `t` as an image number. -/
def img0 (t : Fin cfg0.N) : Fin 8 := ⟨t.val, by have h := t.isLt; have hN : cfg0.N = 8 := N_0; omega⟩

/-! ## The windows' blocks at a point -/

theorem blk0_0 (c : Dev nD) (t : Fin cfg0.N) (p : Fin 1024) (k : Fin 512) :
    iblk0 (V1 m ρ) c 0 t (ix3 (0 : Fin 1) p k) = pix (m ((c : Thread nD τ).loc main_arg0)) (img0 t) p k := by
  have e : ((cfg0.win 0).blk t).view.emb (ix3 (0 : Fin 1) p k) = ix3 (img0 t) p k := by
    obtain ⟨e0, e1, e2, -⟩ := idx0 t
    funext a; apply Fin.ext
    match a with
    | ⟨0, _⟩ => show win0_0.index t (0 : Fin 3) * 1 + 1 * 0 = t.val; omega
    | ⟨1, _⟩ => show win0_0.index t (1 : Fin 3) * 1024 + 1 * p.val = p.val; omega
    | ⟨2, _⟩ => show win0_0.index t (2 : Fin 3) * 512 + 1 * k.val = k.val; omega
  show V1 m ρ c main_v0 (((cfg0.win 0).blk t).view.emb (ix3 (0 : Fin 1) p k)) = _
  rw [e]
  exact (congrFun (V1_v0 m ρ c) _).trans (Host.reshape_x_apply _ (img0 t) p k)

theorem blk0_1 (c : Dev nD) (t : Fin cfg0.N) (k o : Fin 512) :
    iblk0 (V1 m ρ) c 1 t (ix2 k o) = m ((c : Thread nD τ).loc main_arg1) (ix2 o k) := by
  have e : ((cfg0.win 1).blk t).view.emb (ix2 k o) = ix2 k o := by
    obtain ⟨-, -, -, e0, e1, -⟩ := idx0 t
    funext a; apply Fin.ext
    match a with
    | ⟨0, _⟩ => show win0_1.index t (0 : Fin 2) * 512 + 1 * k.val = k.val; omega
    | ⟨1, _⟩ => show win0_1.index t (1 : Fin 2) * 512 + 1 * o.val = o.val; omega
  show V1 m ρ c main_v1 (((cfg0.win 1).blk t).view.emb (ix2 k o)) = _
  rw [e]
  exact (congrFun (V1_v1 m ρ c) _).trans (Host.transpose_w_apply _ k o)

theorem blk0_2 (c : Dev nD) (t : Fin cfg0.N) (o : Fin 512) :
    iblk0 (V1 m ρ) c 2 t (ix2 (0 : Fin 1) o) = m ((c : Thread nD τ).loc main_arg2) (ix1 o) := by
  have e : ((cfg0.win 2).blk t).view.emb (ix2 (0 : Fin 1) o) = ix2 (0 : Fin 1) o := by
    obtain ⟨-, -, -, -, -, e0, e1, -⟩ := idx0 t
    funext a; apply Fin.ext
    match a with
    | ⟨0, _⟩ => show win0_2.index t (0 : Fin 2) * 1 + 1 * 0 = 0; omega
    | ⟨1, _⟩ => show win0_2.index t (1 : Fin 2) * 512 + 1 * o.val = o.val; omega
  show V1 m ρ c main_v3 (((cfg0.win 2).blk t).view.emb (ix2 (0 : Fin 1) o)) = _
  rw [e]
  exact (congrFun (V1_v3 m ρ c) _).trans (Host.row_b_apply _ o)

theorem blk0_3 (c : Dev nD) (t : Fin cfg0.N) (k o : Fin 512) :
    iblk0 (V1 m ρ) c 3 t (ix2 k o) = m ((c : Thread nD τ).loc main_arg5) (ix2 o k) := by
  have e : ((cfg0.win 3).blk t).view.emb (ix2 k o) = ix2 k o := by
    obtain ⟨-, -, -, -, -, -, -, e0, e1, -⟩ := idx0 t
    funext a; apply Fin.ext
    match a with
    | ⟨0, _⟩ => show win0_3.index t (0 : Fin 2) * 512 + 1 * k.val = k.val; omega
    | ⟨1, _⟩ => show win0_3.index t (1 : Fin 2) * 512 + 1 * o.val = o.val; omega
  show V1 m ρ c main_v2 (((cfg0.win 3).blk t).view.emb (ix2 k o)) = _
  rw [e]
  exact (congrFun (V1_v2 m ρ c) _).trans (Host.transpose_w_apply _ k o)

theorem blk0_4 (c : Dev nD) (t : Fin cfg0.N) (o : Fin 512) :
    iblk0 (V1 m ρ) c 4 t (ix2 (0 : Fin 1) o) = m ((c : Thread nD τ).loc main_arg6) (ix1 o) := by
  have e : ((cfg0.win 4).blk t).view.emb (ix2 (0 : Fin 1) o) = ix2 (0 : Fin 1) o := by
    obtain ⟨-, -, -, -, -, -, -, -, -, e0, e1, -⟩ := idx0 t
    funext a; apply Fin.ext
    match a with
    | ⟨0, _⟩ => show win0_4.index t (0 : Fin 2) * 1 + 1 * 0 = 0; omega
    | ⟨1, _⟩ => show win0_4.index t (1 : Fin 2) * 512 + 1 * o.val = o.val; omega
  show V1 m ρ c main_v4 (((cfg0.win 4).blk t).view.emb (ix2 (0 : Fin 1) o)) = _
  rw [e]
  exact (congrFun (V1_v4 m ρ c) _).trans (Host.row_b_apply _ o)

end Cert.Attn.Entry

end
-- ==== Proof.BodyDot.lean ====
/-
  The two matrix products of the kernel bodies, read at an index at the ideal values.

  Into a zero accumulator a product's entry is the plain sum over the contracted axis. The first body
  multiplies a [1024, 512] matrix by a [512, 512] matrix, contracting the left operand's second axis against
  the right operand's first: the entry at `(p, o)` is `∑ c, l (p, c) * r (c, o)`. The second body multiplies a
  [1, 512] row by the transpose of a [1024, 512] matrix, contracting the second axis of both operands: the
  entry at `(0, q)` is `∑ c, l (0, c) * r (q, c)`.
-/
import proofs.«151920_j3161095930112_2_alg».proof.Proof.Gen.KernelIdeal.Skeleton
import proofs.«151920_j3161095930112_2_alg».proof.Proof.LibDotSum
import Idealize.ShloMosaic.Lib.ValueIdx
import Idealize.ShloMosaic.PureOps.Ideal.Laws

noncomputable section

namespace Cert.Attn.Body

open Idealize.ShloMosaic Idealize.ShloMosaic.ValueIdx Cert.KernelIdeal Cert.KernelIdeal.Gen

/-- The product of a [1024, 512] matrix with a [512, 512] matrix into the zero accumulator is, at `(p, o)`,
    the sum over the contracted axis of the products of the entries `(p, c)` and `(c, o)`. -/
theorem matmul_1024x512_512x512_apply {φ₁ φ₂ : FTy} (l : FVec Ideal S1024x512 φ₁) (r : FVec Ideal S512x512 φ₂)
    (prec : Option ContractPrecision) (p : Fin 1024) (o : Fin 512) :
    matmul dot_S1024x512_S512x512_S1024x512_1_0_0_1_n_n prec l r (constant S1024x512 .f32 0x00000000#32) (ix2 p o)
      = ∑ c : Fin 512, l (ix2 p c) * r (ix2 c o) := by
  refine (Ideal.matmul_constant_zero_apply dot_S1024x512_S512x512_S1024x512_1_0_0_1_n_n prec l r (ix2 p o)).trans ?_
  refine Cert.LibDotSum.sum_contr_eq_sum_fin dot_S1024x512_S512x512_S1024x512_1_0_0_1_n_n rfl rfl ?_ ?_ ?_ ?_ l r (ix2 p o)
  · intro j k
    unfold DotDims.lhsIdx
    rw [dif_neg (show ¬(0 : Fin S1024x512.rank) ∈ dot_S1024x512_S512x512_S1024x512_1_0_0_1_n_n.lhsBatch by decide),
      dif_pos (show (0 : Fin S1024x512.rank) ∈ dot_S1024x512_S512x512_S1024x512_1_0_0_1_n_n.lhsNonContracting by decide)]
    rfl
  · intro j k
    exact dot_S1024x512_S512x512_S1024x512_1_0_0_1_n_n.lhsIdx_val_of_single rfl j k
  · intro j k
    exact dot_S1024x512_S512x512_S1024x512_1_0_0_1_n_n.rhsIdx_val_of_single rfl j k
  · intro j k
    unfold DotDims.rhsIdx
    rw [dif_neg (show ¬(1 : Fin S512x512.rank) ∈ dot_S1024x512_S512x512_S1024x512_1_0_0_1_n_n.rhsBatch by decide),
      dif_pos (show (1 : Fin S512x512.rank) ∈ dot_S1024x512_S512x512_S1024x512_1_0_0_1_n_n.rhsNonContracting by decide)]
    rfl

/-- The left index of the second product at output `j` and contraction index `k` keeps `j`'s row. -/
theorem lhs_row_0 (j : S1x1024.Idx) (k : dot_S1x512_S1024x512_S1x1024_1_1_0_0_n_n.contr.Idx) :
    (dot_S1x512_S1024x512_S1x1024_1_1_0_0_n_n.lhsIdx j k 0).val = (j 0).val := by
  unfold DotDims.lhsIdx
  rw [dif_neg (show ¬(0 : Fin S1x512.rank) ∈ dot_S1x512_S1024x512_S1x1024_1_1_0_0_n_n.lhsBatch by decide),
    dif_pos (show (0 : Fin S1x512.rank) ∈ dot_S1x512_S1024x512_S1x1024_1_1_0_0_n_n.lhsNonContracting by decide)]
  rfl

/-- Its second coordinate is the contraction index. -/
theorem lhs_row_1 (j : S1x1024.Idx) (k : dot_S1x512_S1024x512_S1x1024_1_1_0_0_n_n.contr.Idx) :
    (dot_S1x512_S1024x512_S1x1024_1_1_0_0_n_n.lhsIdx j k 1).val = (k ⟨0, by decide⟩).val :=
  dot_S1x512_S1024x512_S1x1024_1_1_0_0_n_n.lhsIdx_val_of_single rfl j k

/-- The right index of the second product takes its row from `j`'s column. -/
theorem rhs_row_0 (j : S1x1024.Idx) (k : dot_S1x512_S1024x512_S1x1024_1_1_0_0_n_n.contr.Idx) :
    (dot_S1x512_S1024x512_S1x1024_1_1_0_0_n_n.rhsIdx j k 0).val = (j 1).val := by
  unfold DotDims.rhsIdx
  rw [dif_neg (show ¬(0 : Fin S1024x512.rank) ∈ dot_S1x512_S1024x512_S1x1024_1_1_0_0_n_n.rhsBatch by decide),
    dif_pos (show (0 : Fin S1024x512.rank) ∈ dot_S1x512_S1024x512_S1x1024_1_1_0_0_n_n.rhsNonContracting by decide)]
  rfl

/-- Its second coordinate is the contraction index. -/
theorem rhs_row_1 (j : S1x1024.Idx) (k : dot_S1x512_S1024x512_S1x1024_1_1_0_0_n_n.contr.Idx) :
    (dot_S1x512_S1024x512_S1x1024_1_1_0_0_n_n.rhsIdx j k 1).val = (k ⟨0, by decide⟩).val :=
  dot_S1x512_S1024x512_S1x1024_1_1_0_0_n_n.rhsIdx_val_of_single rfl j k

/-- The product of a [1, 512] row with the transpose of a [1024, 512] matrix into the zero accumulator is, at
    `(0, q)`, the sum over the contracted axis of the products of the entries `(0, c)` and `(q, c)`. -/
theorem matmul_1x512_1024x512_apply {φ₁ φ₂ : FTy} (l : FVec Ideal S1x512 φ₁) (r : FVec Ideal S1024x512 φ₂)
    (prec : Option ContractPrecision) (q : Fin 1024) :
    matmul dot_S1x512_S1024x512_S1x1024_1_1_0_0_n_n prec l r (constant S1x1024 .f32 0x00000000#32) (ix2 (0 : Fin 1) q)
      = ∑ c : Fin 512, l (ix2 (0 : Fin 1) c) * r (ix2 q c) := by
  refine (Ideal.matmul_constant_zero_apply dot_S1x512_S1024x512_S1x1024_1_1_0_0_n_n prec l r (ix2 (0 : Fin 1) q)).trans ?_
  rw [← Equiv.sum_comp (contrEquiv1 dot_S1x512_S1024x512_S1x1024_1_1_0_0_n_n 512 rfl rfl).symm]
  refine Finset.sum_congr rfl fun c _ => ?_
  have hc := contrEquiv1_symm_val dot_S1x512_S1024x512_S1x1024_1_1_0_0_n_n 512 rfl rfl c
  have el : dot_S1x512_S1024x512_S1x1024_1_1_0_0_n_n.lhsIdx (ix2 (0 : Fin 1) q)
      ((contrEquiv1 dot_S1x512_S1024x512_S1x1024_1_1_0_0_n_n 512 rfl rfl).symm c) = ix2 (0 : Fin 1) c :=
    funext fun a => Fin.ext (by
      match a with
      | ⟨0, _⟩ => exact lhs_row_0 _ _
      | ⟨1, _⟩ => exact (lhs_row_1 _ _).trans hc)
  have er : dot_S1x512_S1024x512_S1x1024_1_1_0_0_n_n.rhsIdx (ix2 (0 : Fin 1) q)
      ((contrEquiv1 dot_S1x512_S1024x512_S1x1024_1_1_0_0_n_n 512 rfl rfl).symm c) = ix2 q c :=
    funext fun a => Fin.ext (by
      match a with
      | ⟨0, _⟩ => exact rhs_row_0 _ _
      | ⟨1, _⟩ => exact (rhs_row_1 _ _).trans hc)
  rw [el, er]

end Cert.Attn.Body

end
-- ==== Proof.BodyXr.lean ====
/-
  The first kernel body's residual convolution block, read at an index at the ideal values.

  The body loads a block `x` of shape [1, 1024, 512], a weight `w` of shape [512, 512] and a bias row `b` of
  shape [1, 512]. It drops the block's unit axis, multiplies the [1024, 512] matrix by the weight into a zero
  accumulator, adds the bias row to every row and adds the block back. At the ideal values the casts to bf16
  are the identity and the product's entry is the plain sum over the contracted axis, so the entry at pixel
  `p` and channel `o` is `(∑ c, x (0, p, c) * w (c, o)) + b (0, o) + x (0, p, o)`. The value stored is the same
  matrix with the unit axis put back.
-/
import proofs.«151920_j3161095930112_2_alg».proof.Proof.Gen.KernelIdeal.Skeleton
import proofs.«151920_j3161095930112_2_alg».proof.Proof.BodyDot
import Idealize.ShloMosaic.Lib.ValueLayout
import Idealize.ShloMosaic.Lib.Pipeline.Value
import Idealize.ShloMosaic.PureOps.Ideal.Laws

noncomputable section

namespace Cert.Attn.Body

open Idealize.ShloMosaic Idealize.ShloMosaic.ValueIdx Cert.KernelIdeal Cert.KernelIdeal.Gen

/-- The residual convolution block at pixel `p` and channel `o`. -/
theorem pay1_apply (v0 : Vec Ideal S1x1024x512 .f32) (v3 : Vec Ideal S512x512 .f32) (v7 : Vec Ideal S1x512 .f32)
    (p : Fin 1024) (o : Fin 512) :
    k0_pay1 (F := Ideal) v0 v3 v7 (ix2 p o)
      = (∑ c : Fin 512, v0 (ix3 (0 : Fin 1) p c) * v3 (ix2 c o)) + v7 (ix2 (0 : Fin 1) o)
          + v0 (ix3 (0 : Fin 1) p o) := by
  unfold k0_pay1
  rw [addf_apply, addf_apply, matmul_1024x512_512x512_apply, broadcastTo_1b_ab_apply, shapeCast_1ab_ab_apply,
    shapeCast_self, shapeCast_self]
  refine congrArg (· + v7 (ix2 (0 : Fin 1) o) + v0 (ix3 (0 : Fin 1) p o)) (Finset.sum_congr rfl fun c _ => ?_)
  rw [truncf_apply, truncf_apply, shapeCast_1ab_ab_apply]

/-- The stored block is the residual convolution block with the unit axis put back. -/
theorem pay2_apply (v0 : Vec Ideal S1x1024x512 .f32) (v3 : Vec Ideal S512x512 .f32) (v7 : Vec Ideal S1x512 .f32)
    (p : Fin 1024) (o : Fin 512) :
    k0_pay2 (F := Ideal) v0 v3 v7 (ix3 (0 : Fin 1) p o) = k0_pay1 (F := Ideal) v0 v3 v7 (ix2 p o) := by
  unfold k0_pay2
  exact shapeCast_ab_1ab_apply _ _ (0 : Fin 1) p o

end Cert.Attn.Body

end
-- ==== Proof.LibColumns.lean ====
/-
  Index facts for arrays whose long axis is the last one. A sum over the index set of an [n] array, or of a [1, n]
  array, is the sum over the n positions; a reduction over axis 0 of an [a, b] array, read at column q, runs over the
  entries (k, q); an [a, b] array summed over axis 0 at the ideal values is, at column q, the sum over k of those
  entries; and the 0-or-1 word of a comparison converts to the same real number whether it is first zero-extended
  to 32 bits and read signed, or read unsigned as it is.
-/
import Idealize.ShloMosaic.Lib.Pipeline.Value
import Idealize.ShloMosaic.Lib.ValueIdx
import Idealize.ShloMosaic.PureOps.Ideal.Laws

noncomputable section

namespace Cert.LibColumns

open Idealize.ShloMosaic Idealize.ShloMosaic.ValueIdx

/-- The index set of an [n] array is its n positions. -/
def idxEquiv1 {n : Nat} : (⟨1, ![n]⟩ : Shape).Idx ≃ Fin n where
  toFun i := i 0
  invFun q := ix1 q
  left_inv i := (eq_ix1 i).symm
  right_inv _ := rfl

/-- A sum over the index set of an [n] array is the sum over the positions. -/
theorem sum_idx1 {M : Type*} [AddCommMonoid M] {n : Nat} (f : (⟨1, ![n]⟩ : Shape).Idx → M) :
    ∑ i, f i = ∑ q : Fin n, f (ix1 q) :=
  (Equiv.sum_comp (idxEquiv1 (n := n)).symm f).symm

/-- A sum over the index set of a [1, n] array is the sum over the positions of its one row. -/
theorem sum_idx_row {M : Type*} [AddCommMonoid M] {n : Nat} (f : (⟨2, ![1, n]⟩ : Shape).Idx → M) :
    ∑ i, f i = ∑ q : Fin n, f (ix2 (0 : Fin 1) q) := by
  rw [sum_idx2, Fin.sum_univ_one]

/-- The index a reduction over axis 0 reads for column `q` and reduced coordinate `k` is `(k, q)`. -/
theorem lift_col {a b : ℕ} (h : (⟨2, ![a, b]⟩ : Shape).Reduces [0] ⟨1, ![b]⟩) (q : Fin b) (k : Fin a) :
    h.lift (ix1 q) k = ix2 k q :=
  funext fun ax => Fin.ext (by match ax with | ⟨0, _⟩ => rfl | ⟨1, _⟩ => rfl)

/-- A float sum over axis 0 of an [a, b] array, at the ideal values and onto the zero accumulator, is at column
    `q` the sum over `k` of the entries `(k, q)`. The accumulator fact is taken in the form a printed program
    carries it (the zero word equal to itself). -/
theorem sum_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  (Ideal.multiReduction_add_single src 0x00000000#32 h hφ hacc (ix1 q)).trans
    (Finset.sum_congr rfl fun k _ => congrArg src (lift_col h q k))

/-- A one-bit word zero-extended to 32 bits and read as a signed integer is the bit read as a natural number. -/
theorem bit_signed_eq_unsigned (b : BitVec 1) : (((b.setWidth 32).toInt : ℝ) : EReal) = ((b.toNat : ℝ) : EReal) := by
  rcases BitVec.eq_zero_or_eq_one b with h | h <;> subst h <;> rfl

end Cert.LibColumns

end
-- ==== Proof.BodyKsum.lean ====
/-
  The first kernel body's key projection summed over the pixels, read at an index at the ideal values.

  With `xr` the body's residual convolution block of shape [1024, 512], a weight `w` of shape [512, 512] and a
  bias row `b` of shape [1, 512], the body multiplies `xr` by the weight into a zero accumulator, adds the bias
  row to every row, and sums the [1024, 512] result over its 1024 rows; the [512] vector is stored with two unit
  axes in front. At the ideal values the casts to bf16 are the identity, the product's entry is the plain sum
  over the contracted axis and the reduction is the sum over the rows, so the entry at channel `o` is
  `∑ p, ((∑ c, xr (p, c) * w (c, o)) + b (0, o))`.
-/
import proofs.«151920_j3161095930112_2_alg».proof.Proof.Gen.KernelIdeal.Skeleton
import proofs.«151920_j3161095930112_2_alg».proof.Proof.BodyDot
import proofs.«151920_j3161095930112_2_alg».proof.Proof.LibColumns
import Idealize.ShloMosaic.Lib.ValueLayout
import Idealize.ShloMosaic.Lib.Pipeline.Value
import Idealize.ShloMosaic.PureOps.Ideal.Laws

noncomputable section

namespace Cert.Attn.Body

open Idealize.ShloMosaic Idealize.ShloMosaic.ValueIdx Cert.KernelIdeal Cert.KernelIdeal.Gen

/-- The summed key projection at channel `o`. -/
theorem pay3_apply (v0 : Vec Ideal S1x1024x512 .f32) (v3 : Vec Ideal S512x512 .f32) (v7 : Vec Ideal S1x512 .f32)
    (v13 : Vec Ideal S512x512 .f32) (v17 : Vec Ideal S1x512 .f32) (o : Fin 512) :
    k0_pay3 (F := Ideal) v0 v3 v7 v13 v17 (ix3 (0 : Fin 1) (0 : Fin 1) o)
      = ∑ p : Fin 1024, ((∑ c : Fin 512, k0_pay1 (F := Ideal) v0 v3 v7 (ix2 p c) * v13 (ix2 c o))
          + v17 (ix2 (0 : Fin 1) o)) := by
  unfold k0_pay3
  generalize k0_pay1 (F := Ideal) v0 v3 v7 = xr
  rw [shapeCast_ab_1ab_apply, shapeCast_a_1a_apply, shapeCast_self, shapeCast_self]
  refine (Cert.LibColumns.sum_axis0_apply _ _ _ _ o).trans (Finset.sum_congr rfl fun p _ => ?_)
  rw [addf_apply, matmul_1024x512_512x512_apply, broadcastTo_1b_ab_apply]
  refine congrArg (· + v17 (ix2 (0 : Fin 1) o)) (Finset.sum_congr rfl fun c _ => ?_)
  rw [truncf_apply, truncf_apply]

end Cert.Attn.Body

end
-- ==== Proof.KerReg0.lean ====
/-
  The first kernel's region: its two output arrays after the run.

  At grid point `t` (image `t`) the body stores the residual convolution of the image, `[1,1024,512]`, and the key
  projection of it summed over the 1024 pixels, `[1,1,512]`.  The blocks of the eight points tile the two arrays,
  so after the region the first array is `resid x cw cb` at every (image, pixel, channel) and the second is
  `ksum (conv (resid x cw cb) kw kb)` at every (image, 0, channel).
-/
import proofs.«151920_j3161095930112_2_alg».proof.Proof.KerEntry
import proofs.«151920_j3161095930112_2_alg».proof.Proof.BodyXr
import proofs.«151920_j3161095930112_2_alg».proof.Proof.BodyKsum

set_option maxRecDepth 16384

noncomputable section

namespace Cert.Attn.Reg0

open Cert.KernelIdeal Cert.KernelIdeal.Gen Cert.Attn Cert.Attn.Entry
open Idealize.ShloMosaic Idealize.ShloMosaic.TcCoe Idealize.SL.Sem Idealize.ShloMosaic.ValueIdx
open Idealize.ShloMosaic.Pipeline (Dat)

/-! ## One point's stores, from what its blocks hold -/

theorem hz3 : (![0, 0, 0] : Fin 3 → Nat) = fun _ => 0 := funext fun a => by fin_cases a <;> rfl
theorem hz2 : (![0, 0] : Fin 2 → Nat) = fun _ => 0 := funext fun a => by fin_cases a <;> rfl

/-- The residual convolution of one image from its pixels `X`, the transposed weights `Wt` and the bias `Bv`. -/
def xrOf (X : Fin 1024 → Fin 512 → EReal) (Wt : Fin 512 → Fin 512 → EReal) (Bv : Fin 512 → EReal) (p : Fin 1024) (o : Fin 512) : EReal :=
  (∑ k : Fin 512, X p k * Wt k o) + Bv o + X p o

theorem pay1_point (x0 : Vec Ideal S1x1024x512 .f32) (x1 : Vec Ideal S512x512 .f32) (x2 : Vec Ideal S1x512 .f32)
    (X : Fin 1024 → Fin 512 → EReal) (Wt : Fin 512 → Fin 512 → EReal) (Bv : Fin 512 → EReal)
    (h0 : ∀ p k, x0 (ix3 (0 : Fin 1) p k) = X p k) (h1 : ∀ k o, x1 (ix2 k o) = Wt k o) (h2 : ∀ o, x2 (ix2 (0 : Fin 1) o) = Bv o)
    (p : Fin 1024) (o : Fin 512) : k0_pay1 (F := Ideal) x0 x1 x2 (ix2 p o) = xrOf X Wt Bv p o := by
  rw [Body.pay1_apply]
  unfold xrOf
  simp only [h0, h1, h2]

/-- The first store at a point: the residual convolution block. -/
theorem out5_point (x0 : Vec Ideal S1x1024x512 .f32) (x1 : Vec Ideal S512x512 .f32) (x2 : Vec Ideal S1x512 .f32)
    (x3 : Vec Ideal S512x512 .f32) (x4 : Vec Ideal S1x512 .f32)
    (X : Fin 1024 → Fin 512 → EReal) (Wt : Fin 512 → Fin 512 → EReal) (Bv : Fin 512 → EReal)
    (h0 : ∀ p k, x0 (ix3 (0 : Fin 1) p k) = X p k) (h1 : ∀ k o, x1 (ix2 k o) = Wt k o) (h2 : ∀ o, x2 (ix2 (0 : Fin 1) o) = Bv o)
    (p : Fin 1024) (o : Fin 512) : out0_5 (F := Ideal) x0 x1 x2 x3 x4 (ix3 (0 : Fin 1) p o) = xrOf X Wt Bv p o := by
  unfold out0_5
  rw [View.canon_unit_zero hz3]
  simp only [View.ld_unit_zero (S := S1x1024x512) hz3, View.ld_unit_zero (S := S512x512) hz2, View.ld_unit_zero (S := S1x512) hz2]
  rw [Body.pay2_apply]
  exact pay1_point x0 x1 x2 X Wt Bv h0 h1 h2 p o

/-- The second store at a point: the key projection summed over the pixels. -/
theorem out6_point (x0 : Vec Ideal S1x1024x512 .f32) (x1 : Vec Ideal S512x512 .f32) (x2 : Vec Ideal S1x512 .f32)
    (x3 : Vec Ideal S512x512 .f32) (x4 : Vec Ideal S1x512 .f32)
    (X : Fin 1024 → Fin 512 → EReal) (Wt : Fin 512 → Fin 512 → EReal) (Bv : Fin 512 → EReal)
    (Wk : Fin 512 → Fin 512 → EReal) (Bk : Fin 512 → EReal)
    (h0 : ∀ p k, x0 (ix3 (0 : Fin 1) p k) = X p k) (h1 : ∀ k o, x1 (ix2 k o) = Wt k o) (h2 : ∀ o, x2 (ix2 (0 : Fin 1) o) = Bv o)
    (h3 : ∀ k o, x3 (ix2 k o) = Wk k o) (h4 : ∀ o, x4 (ix2 (0 : Fin 1) o) = Bk o)
    (o : Fin 512) :
    out0_6 (F := Ideal) x0 x1 x2 x3 x4 (ix3 (0 : Fin 1) (0 : Fin 1) o)
      = ∑ p : Fin 1024, ((∑ c : Fin 512, xrOf X Wt Bv p c * Wk c o) + Bk o) := by
  unfold out0_6
  rw [View.canon_unit_zero hz3]
  simp only [View.ld_unit_zero (S := S1x1024x512) hz3, View.ld_unit_zero (S := S512x512) hz2, View.ld_unit_zero (S := S1x512) hz2]
  rw [Body.pay3_apply]
  refine Finset.sum_congr rfl fun p _ => ?_
  rw [h4]
  refine congrArg (· + Bk o) (Finset.sum_congr rfl fun c _ => ?_)
  rw [h3, pay1_point x0 x1 x2 X Wt Bv h0 h1 h2 p c]

/-! ## The two arrays after the region -/

variable (m : (ℓ : Loc nD τ sig) → Buf (Elt Ideal) ℓ) (ρ : Dev nD → PrngReg)

/-- The first output array as one function of the arguments: the residual convolution. -/
def G5 (a0 : T4) (a1 : T2) (a2 : T1) : S8x1024x512.Idx → EReal :=
  fun j => resid a0 a1 a2 ⟨(j 0).val, (j 0).isLt⟩ ⟨(j 1).val, (j 1).isLt⟩ ⟨(j 2).val, (j 2).isLt⟩

/-- The second output array as one function of the arguments: the key projection summed over each image's pixels. -/
def G6 (a0 : T4) (a1 : T2) (a2 : T1) (a5 : T2) (a6 : T1) : S8x1x512.Idx → EReal :=
  fun j => ksum (conv (resid a0 a1 a2) a5 a6) ⟨(j 0).val, (j 0).isLt⟩ ⟨(j 2).val, (j 2).isLt⟩

/-- What point `t` writes back to the first output array is block `t` of `G5`. -/
theorem flushed5_eq (c : Dev nD) (t : Fin cfg0.N) :
    (dat0 (V1 m ρ) c).flushed 5 t = ((cfg0.win 5).blk t).view.read (Elt Ideal)
      (G5 (m ((c : Thread nD τ).loc main_arg0)) (m ((c : Thread nD τ).loc main_arg1)) (m ((c : Thread nD τ).loc main_arg2))) := by
  show (cfg0.win 5).cut (grid0.coords t) ((dat0 (V1 m ρ) c).after 5 t) = _
  rw [after0_5]
  funext y
  have hy0 : (y 0).val < 1 := (y 0).isLt
  have hy1 : (y 1).val < 1024 := (y 1).isLt
  have hy2 : (y 2).val < 512 := (y 2).isLt
  have ey : (cfg0.win 5).xinj (grid0.coords t) y = ix3 (0 : Fin 1) (⟨(y 1).val, hy1⟩ : Fin 1024) (⟨(y 2).val, hy2⟩ : Fin 512) := by
    funext a; apply Fin.ext
    match a with
    | ⟨0, _⟩ => show (y 0).val = 0; omega
    | ⟨1, _⟩ => rfl
    | ⟨2, _⟩ => rfl
  have ee : ((cfg0.win 5).blk t).view.emb y = ix3 (img0 t) (⟨(y 1).val, hy1⟩ : Fin 1024) (⟨(y 2).val, hy2⟩ : Fin 512) := by
    obtain ⟨-, -, -, -, -, -, -, -, -, -, -, e0, e1, e2, -⟩ := idx0 t
    funext a; apply Fin.ext
    match a with
    | ⟨0, _⟩ => show win0_5.index t (0 : Fin 3) * 1 + 1 * (y 0).val = t.val; omega
    | ⟨1, _⟩ => show win0_5.index t (1 : Fin 3) * 1024 + 1 * (y 1).val = (y 1).val; omega
    | ⟨2, _⟩ => show win0_5.index t (2 : Fin 3) * 512 + 1 * (y 2).val = (y 2).val; omega
  show out0_5 (iblk0 (V1 m ρ) c 0 t) (iblk0 (V1 m ρ) c 1 t) (iblk0 (V1 m ρ) c 2 t) (iblk0 (V1 m ρ) c 3 t) (iblk0 (V1 m ρ) c 4 t)
      ((cfg0.win 5).xinj (grid0.coords t) y)
    = G5 (m ((c : Thread nD τ).loc main_arg0)) (m ((c : Thread nD τ).loc main_arg1)) (m ((c : Thread nD τ).loc main_arg2))
      (((cfg0.win 5).blk t).view.emb y)
  rw [ey, ee]
  refine (out5_point (iblk0 (V1 m ρ) c 0 t) (iblk0 (V1 m ρ) c 1 t) (iblk0 (V1 m ρ) c 2 t) (iblk0 (V1 m ρ) c 3 t) (iblk0 (V1 m ρ) c 4 t)
    (fun p k => pix (m ((c : Thread nD τ).loc main_arg0)) (img0 t) p k)
    (fun k o => m ((c : Thread nD τ).loc main_arg1) (ix2 o k))
    (fun o => m ((c : Thread nD τ).loc main_arg2) (ix1 o))
    (blk0_0 m ρ c t) (blk0_1 m ρ c t) (blk0_2 m ρ c t) _ _).trans ?_
  rfl

theorem flushed6_eq (c : Dev nD) (t : Fin cfg0.N) :
    (dat0 (V1 m ρ) c).flushed 6 t = ((cfg0.win 6).blk t).view.read (Elt Ideal)
      (G6 (m ((c : Thread nD τ).loc main_arg0)) (m ((c : Thread nD τ).loc main_arg1)) (m ((c : Thread nD τ).loc main_arg2))
        (m ((c : Thread nD τ).loc main_arg5)) (m ((c : Thread nD τ).loc main_arg6))) := by
  show (cfg0.win 6).cut (grid0.coords t) ((dat0 (V1 m ρ) c).after 6 t) = _
  rw [after0_6]
  funext y
  have hy0 : (y 0).val < 1 := (y 0).isLt
  have hy1 : (y 1).val < 1 := (y 1).isLt
  have hy2 : (y 2).val < 512 := (y 2).isLt
  have ey : (cfg0.win 6).xinj (grid0.coords t) y = ix3 (0 : Fin 1) (0 : Fin 1) (⟨(y 2).val, hy2⟩ : Fin 512) := by
    funext a; apply Fin.ext
    match a with
    | ⟨0, _⟩ => show (y 0).val = 0; omega
    | ⟨1, _⟩ => show (y 1).val = 0; omega
    | ⟨2, _⟩ => rfl
  have ee : ((cfg0.win 6).blk t).view.emb y = ix3 (img0 t) (0 : Fin 1) (⟨(y 2).val, hy2⟩ : Fin 512) := by
    obtain ⟨-, -, -, -, -, -, -, -, -, -, -, -, -, -, e0, e1, e2⟩ := idx0 t
    funext a; apply Fin.ext
    match a with
    | ⟨0, _⟩ => show win0_6.index t (0 : Fin 3) * 1 + 1 * (y 0).val = t.val; omega
    | ⟨1, _⟩ => show win0_6.index t (1 : Fin 3) * 1 + 1 * (y 1).val = 0; omega
    | ⟨2, _⟩ => show win0_6.index t (2 : Fin 3) * 512 + 1 * (y 2).val = (y 2).val; omega
  show out0_6 (iblk0 (V1 m ρ) c 0 t) (iblk0 (V1 m ρ) c 1 t) (iblk0 (V1 m ρ) c 2 t) (iblk0 (V1 m ρ) c 3 t) (iblk0 (V1 m ρ) c 4 t)
      ((cfg0.win 6).xinj (grid0.coords t) y)
    = G6 (m ((c : Thread nD τ).loc main_arg0)) (m ((c : Thread nD τ).loc main_arg1)) (m ((c : Thread nD τ).loc main_arg2))
        (m ((c : Thread nD τ).loc main_arg5)) (m ((c : Thread nD τ).loc main_arg6))
      (((cfg0.win 6).blk t).view.emb y)
  rw [ey, ee]
  refine (out6_point (iblk0 (V1 m ρ) c 0 t) (iblk0 (V1 m ρ) c 1 t) (iblk0 (V1 m ρ) c 2 t) (iblk0 (V1 m ρ) c 3 t) (iblk0 (V1 m ρ) c 4 t)
    (fun p k => pix (m ((c : Thread nD τ).loc main_arg0)) (img0 t) p k)
    (fun k o => m ((c : Thread nD τ).loc main_arg1) (ix2 o k))
    (fun o => m ((c : Thread nD τ).loc main_arg2) (ix1 o))
    (fun k o => m ((c : Thread nD τ).loc main_arg5) (ix2 o k))
    (fun o => m ((c : Thread nD τ).loc main_arg6) (ix1 o))
    (blk0_0 m ρ c t) (blk0_1 m ρ c t) (blk0_2 m ρ c t) (blk0_3 m ρ c t) (blk0_4 m ρ c t) _).trans ?_
  rfl

/-- Image i as a grid point. -/
def pt0 (i : Fin 8) : Fin cfg0.N := ⟨i.val, by have hN : grid0.N = 8 := N_0; have := i.isLt; show i.val < grid0.N; omega⟩

/-- An index of the first output array is in point `t`'s block iff each coordinate is in the block's range. -/
theorem mem_blk5 (t : Fin cfg0.N) (i : S8x1024x512.Idx) :
    i ∈ ((cfg0.win 5).blk t).view.set ↔ ∀ a : Fin 3, win0_5.index t a * S1x1024x512.size a ≤ (i a).val
      ∧ (i a).val < win0_5.index t a * S1x1024x512.size a + S1x1024x512.size a := by
  show i ∈ ((View.whole main_v5_0).slice (win0_5.rect t)).set ↔ _
  rw [View.set_slice_whole, Rect.mem_set_unit]
  exact Iff.rfl

theorem mem_blk6 (t : Fin cfg0.N) (i : S8x1x512.Idx) :
    i ∈ ((cfg0.win 6).blk t).view.set ↔ ∀ a : Fin 3, win0_6.index t a * S1x1x512.size a ≤ (i a).val
      ∧ (i a).val < win0_6.index t a * S1x1x512.size a + S1x1x512.size a := by
  show i ∈ ((View.whole main_v5_1).slice (win0_6.rect t)).set ↔ _
  rw [View.set_slice_whole, Rect.mem_set_unit]
  exact Iff.rfl

/-- Every index of the first output array is in the block of the point of its image. -/
theorem cover5 (i : S8x1024x512.Idx) : ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 512 := (i 2).isLt
  refine ⟨pt0 ⟨(i 0).val, hi0⟩, flush0_5 _, ?_⟩
  rw [mem_blk5]
  obtain ⟨-, -, -, -, -, -, -, -, -, -, -, e0, e1, e2, -⟩ := idx0 (pt0 ⟨(i 0).val, hi0⟩)
  have e0' : win0_5.index (pt0 ⟨(i 0).val, hi0⟩) (0 : Fin 3) = (i 0).val := e0
  intro a
  match a with
  | ⟨0, _⟩ =>
    show win0_5.index (pt0 ⟨(i 0).val, hi0⟩) (0 : Fin 3) * 1 ≤ (i 0).val ∧ (i 0).val < win0_5.index (pt0 ⟨(i 0).val, hi0⟩) (0 : Fin 3) * 1 + 1
    omega
  | ⟨1, _⟩ =>
    show win0_5.index (pt0 ⟨(i 0).val, hi0⟩) (1 : Fin 3) * 1024 ≤ (i 1).val ∧ (i 1).val < win0_5.index (pt0 ⟨(i 0).val, hi0⟩) (1 : Fin 3) * 1024 + 1024
    omega
  | ⟨2, _⟩ =>
    show win0_5.index (pt0 ⟨(i 0).val, hi0⟩) (2 : Fin 3) * 512 ≤ (i 2).val ∧ (i 2).val < win0_5.index (pt0 ⟨(i 0).val, hi0⟩) (2 : Fin 3) * 512 + 512
    omega

theorem cover6 (i : S8x1x512.Idx) : ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 512 := (i 2).isLt
  refine ⟨pt0 ⟨(i 0).val, hi0⟩, flush0_6 _, ?_⟩
  rw [mem_blk6]
  obtain ⟨-, -, -, -, -, -, -, -, -, -, -, -, -, -, e0, e1, e2⟩ := idx0 (pt0 ⟨(i 0).val, hi0⟩)
  have e0' : win0_6.index (pt0 ⟨(i 0).val, hi0⟩) (0 : Fin 3) = (i 0).val := e0
  intro a
  match a with
  | ⟨0, _⟩ =>
    show win0_6.index (pt0 ⟨(i 0).val, hi0⟩) (0 : Fin 3) * 1 ≤ (i 0).val ∧ (i 0).val < win0_6.index (pt0 ⟨(i 0).val, hi0⟩) (0 : Fin 3) * 1 + 1
    omega
  | ⟨1, _⟩ =>
    show win0_6.index (pt0 ⟨(i 0).val, hi0⟩) (1 : Fin 3) * 1 ≤ (i 1).val ∧ (i 1).val < win0_6.index (pt0 ⟨(i 0).val, hi0⟩) (1 : Fin 3) * 1 + 1
    omega
  | ⟨2, _⟩ =>
    show win0_6.index (pt0 ⟨(i 0).val, hi0⟩) (2 : Fin 3) * 512 ≤ (i 2).val ∧ (i 2).val < win0_6.index (pt0 ⟨(i 0).val, hi0⟩) (2 : Fin 3) * 512 + 512
    omega

/-- After the region the first output array is the residual convolution. -/
theorem final5 (c : Dev nD) : (dat0 (V1 m ρ) c).arrAt 5 cfg0.N
    = G5 (m ((c : Thread nD τ).loc main_arg0)) (m ((c : Thread nD τ).loc main_arg1)) (m ((c : Thread nD τ).loc main_arg2)) :=
  (dat0 (V1 m ρ) c).arrAt_eq_of_cover 5 _ (fun t _ => flushed5_eq m ρ c t) cover5

/-- After the region the second output array is the per-image key sum. -/
theorem final6 (c : Dev nD) : (dat0 (V1 m ρ) c).arrAt 6 cfg0.N
    = G6 (m ((c : Thread nD τ).loc main_arg0)) (m ((c : Thread nD τ).loc main_arg1)) (m ((c : Thread nD τ).loc main_arg2))
        (m ((c : Thread nD τ).loc main_arg5)) (m ((c : Thread nD τ).loc main_arg6)) :=
  (dat0 (V1 m ρ) c).arrAt_eq_of_cover 6 _ (fun t _ => flushed6_eq m ρ c t) cover6

end Cert.Attn.Reg0

end
-- ==== Proof.KerMid.lean ====
/-
  What the second kernel's region finds in its arrays, and what its windows' blocks hold at a grid point.

  Between the two regions the host forms, from the per-image key sums the first region left, the vector
  `v[i,0,c] = Σ_o kdiff[i,o]·qw[o,c]` and the scalar `b[i,0,0] = Σ_o kdiff[i,o]·qb[o]`; the residual convolution array
  is passed on unchanged.  At grid point `t` (image `t`) the three input blocks are image `t`'s residual convolution,
  its vector and its scalar.
-/
import proofs.«151920_j3161095930112_2_alg».proof.Proof.KerReg0

set_option maxRecDepth 16384

noncomputable section

namespace Cert.Attn.Mid

open Cert.KernelIdeal Cert.KernelIdeal.Gen Cert.Attn Cert.Attn.Entry Cert.Attn.Reg0
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The arguments and the first region's outputs at the first region's exit -/

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_v5_0 (c : Dev nD) : (W2 m ρ c (Proc.devRef .tc main_v5_0) : S8x1024x512.Idx → EReal)
    = G5 (m ((c : Thread nD τ).loc main_arg0)) (m ((c : Thread nD τ).loc main_arg1)) (m ((c : Thread nD τ).loc main_arg2)) :=
  (W2_arr m ρ c 5).trans (final5 m ρ c)

theorem W2_v5_1 (c : Dev nD) : (W2 m ρ c (Proc.devRef .tc main_v5_1) : S8x1x512.Idx → EReal)
    = G6 (m ((c : Thread nD τ).loc main_arg0)) (m ((c : Thread nD τ).loc main_arg1)) (m ((c : Thread nD τ).loc main_arg2))
        (m ((c : Thread nD τ).loc main_arg5)) (m ((c : Thread nD τ).loc main_arg6)) :=
  (W2_arr m ρ c 6).trans (final6 m ρ c)

/-! ## The second region's entry contents -/

theorem V3_v5_0 (c : Dev nD) : (V3 m ρ c main_v5_0 : S8x1024x512.Idx → EReal)
    = G5 (m ((c : Thread nD τ).loc main_arg0)) (m ((c : Thread nD τ).loc main_arg1)) (m ((c : Thread nD τ).loc main_arg2)) := by
  have e : (W3 m ρ c (Proc.devRef .tc main_v5_0) : S8x1024x512.Idx → EReal) = W2 m ρ c (Proc.devRef .tc main_v5_0) := by
    show StableHlo.after hostOps1 (W2 m ρ c) (Proc.devRef .tc main_v5_0) = _
    after_results <;> rfl
  exact e.trans (W2_v5_0 m ρ c)

theorem V3_v12 (c : Dev nD) : (V3 m ρ c main_v12 : S8x1x512.Idx → EReal)
    = Host.midV (G6 (m ((c : Thread nD τ).loc main_arg0)) (m ((c : Thread nD τ).loc main_arg1)) (m ((c : Thread nD τ).loc main_arg2))
        (m ((c : Thread nD τ).loc main_arg5)) (m ((c : Thread nD τ).loc main_arg6))) (m ((c : Thread nD τ).loc main_arg3)) := by
  have e : (W3 m ρ c (Proc.devRef .tc main_v12) : S8x1x512.Idx → EReal)
      = Host.midV (W2 m ρ c (Proc.devRef .tc main_v5_1)) (W2 m ρ c (Proc.devRef .tc main_arg3)) := by
    show StableHlo.after hostOps1 (W2 m ρ c) (Proc.devRef .tc main_v12) = _
    after_results <;> rfl
  rw [W2_v5_1, W2_main_arg3] at e
  exact e

theorem V3_v17 (c : Dev nD) : (V3 m ρ c main_v17 : S8x1x1.Idx → EReal)
    = Host.midB (G6 (m ((c : Thread nD τ).loc main_arg0)) (m ((c : Thread nD τ).loc main_arg1)) (m ((c : Thread nD τ).loc main_arg2))
        (m ((c : Thread nD τ).loc main_arg5)) (m ((c : Thread nD τ).loc main_arg6))) (m ((c : Thread nD τ).loc main_arg4)) := by
  have e : (W3 m ρ c (Proc.devRef .tc main_v17) : S8x1x1.Idx → EReal)
      = Host.midB (W2 m ρ c (Proc.devRef .tc main_v5_1)) (W2 m ρ c (Proc.devRef .tc main_arg4)) := by
    show StableHlo.after hostOps1 (W2 m ρ c) (Proc.devRef .tc main_v17) = _
    after_results <;> rfl
  rw [W2_v5_1, W2_main_arg4] at e
  exact e

/-- The host's difference of key sums is `kdiff` of the key projection. -/
theorem midDiff_G6 (a0 : T4) (a1 : T2) (a2 : T1) (a5 : T2) (a6 : T1) (i : Fin 8) (o : Fin 512) :
    Host.midDiff (G6 a0 a1 a2 a5 a6) (ix2 i o) = kdiff (conv (resid a0 a1 a2) a5 a6) i o := by
  rw [Host.midDiff_apply]
  rfl

/-! ## The block indices, decided over the eight grid points -/

theorem idx1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Grid point `t` as an image number, and back. -/
def img1 (t : Fin cfg1.N) : Fin 8 := ⟨t.val, by have h := t.isLt; have hN : cfg1.N = 8 := N_1; omega⟩
def pt1 (i : Fin 8) : Fin cfg1.N := ⟨i.val, by have hN : grid1.N = 8 := N_1; have := i.isLt; show i.val < grid1.N; omega⟩

/-! ## The windows' blocks at a point -/

theorem blk1_0 (c : Dev nD) (t : Fin cfg1.N) (p : Fin 1024) (k : Fin 512) :
    iblk1 (V3 m ρ) c 0 t (ix3 (0 : Fin 1) p k)
      = resid (m ((c : Thread nD τ).loc main_arg0)) (m ((c : Thread nD τ).loc main_arg1)) (m ((c : Thread nD τ).loc main_arg2)) (img1 t) p k := by
  have e : ((cfg1.win 0).blk t).view.emb (ix3 (0 : Fin 1) p k) = ix3 (img1 t) p k := by
    obtain ⟨e0, e1, e2, -⟩ := idx1 t
    funext a; apply Fin.ext
    match a with
    | ⟨0, _⟩ => show win1_0.index t (0 : Fin 3) * 1 + 1 * 0 = t.val; omega
    | ⟨1, _⟩ => show win1_0.index t (1 : Fin 3) * 1024 + 1 * p.val = p.val; omega
    | ⟨2, _⟩ => show win1_0.index t (2 : Fin 3) * 512 + 1 * k.val = k.val; omega
  show V3 m ρ c main_v5_0 (((cfg1.win 0).blk t).view.emb (ix3 (0 : Fin 1) p k)) = _
  rw [e]
  exact congrFun (V3_v5_0 m ρ c) _

theorem blk1_1 (c : Dev nD) (t : Fin cfg1.N) (k : Fin 512) :
    iblk1 (V3 m ρ) c 1 t (ix3 (0 : Fin 1) (0 : Fin 1) k)
      = ∑ o : Fin 512, kdiff (conv (resid (m ((c : Thread nD τ).loc main_arg0)) (m ((c : Thread nD τ).loc main_arg1)) (m ((c : Thread nD τ).loc main_arg2)))
          (m ((c : Thread nD τ).loc main_arg5)) (m ((c : Thread nD τ).loc main_arg6))) (img1 t) o * m ((c : Thread nD τ).loc main_arg3) (ix2 o k) := by
  have e : ((cfg1.win 1).blk t).view.emb (ix3 (0 : Fin 1) (0 : Fin 1) k) = ix3 (img1 t) (0 : Fin 1) k := by
    obtain ⟨-, -, -, e0, e1, e2, -⟩ := idx1 t
    funext a; apply Fin.ext
    match a with
    | ⟨0, _⟩ => show win1_1.index t (0 : Fin 3) * 1 + 1 * 0 = t.val; omega
    | ⟨1, _⟩ => show win1_1.index t (1 : Fin 3) * 1 + 1 * 0 = 0; omega
    | ⟨2, _⟩ => show win1_1.index t (2 : Fin 3) * 512 + 1 * k.val = k.val; omega
  show V3 m ρ c main_v12 (((cfg1.win 1).blk t).view.emb (ix3 (0 : Fin 1) (0 : Fin 1) k)) = _
  rw [e]
  refine (congrFun (V3_v12 m ρ c) _).trans ((Host.midV_apply _ _ (img1 t) k).trans ?_)
  exact Finset.sum_congr rfl fun o _ => congrArg (· * m ((c : Thread nD τ).loc main_arg3) (ix2 o k)) (midDiff_G6 _ _ _ _ _ (img1 t) o)

theorem blk1_2 (c : Dev nD) (t : Fin cfg1.N) :
    iblk1 (V3 m ρ) c 2 t (ix3 (0 : Fin 1) (0 : Fin 1) (0 : Fin 1))
      = ∑ o : Fin 512, kdiff (conv (resid (m ((c : Thread nD τ).loc main_arg0)) (m ((c : Thread nD τ).loc main_arg1)) (m ((c : Thread nD τ).loc main_arg2)))
          (m ((c : Thread nD τ).loc main_arg5)) (m ((c : Thread nD τ).loc main_arg6))) (img1 t) o * m ((c : Thread nD τ).loc main_arg4) (ix1 o) := by
  have e : ((cfg1.win 2).blk t).view.emb (ix3 (0 : Fin 1) (0 : Fin 1) (0 : Fin 1)) = ix3 (img1 t) (0 : Fin 1) (0 : Fin 1) := by
    obtain ⟨-, -, -, -, -, -, e0, e1, e2, -⟩ := idx1 t
    funext a; apply Fin.ext
    match a with
    | ⟨0, _⟩ => show win1_2.index t (0 : Fin 3) * 1 + 1 * 0 = t.val; omega
    | ⟨1, _⟩ => show win1_2.index t (1 : Fin 3) * 1 + 1 * 0 = 0; omega
    | ⟨2, _⟩ => show win1_2.index t (2 : Fin 3) * 1 + 1 * 0 = 0; omega
  show V3 m ρ c main_v17 (((cfg1.win 2).blk t).view.emb (ix3 (0 : Fin 1) (0 : Fin 1) (0 : Fin 1))) = _
  rw [e]
  refine (congrFun (V3_v17 m ρ c) _).trans ((Host.midB_apply _ _ (img1 t)).trans ?_)
  exact Finset.sum_congr rfl fun o _ => congrArg (· * m ((c : Thread nD τ).loc main_arg4) (ix1 o)) (midDiff_G6 _ _ _ _ _ (img1 t) o)

end Cert.Attn.Mid

end
-- ==== Proof.KerRun.lean ====
/-
  The idealized kernel program's run, with its RESULT named.

  @main is five segments: a stretch of host operations, the first kernel's region, a second stretch, the second
  kernel's region, and one closing reshape.  The buffer contents at each boundary are a fold from the launch memory
  (`Gen.W0 … Gen.W5`); every weakly fair execution terminates, nothing faulting, in a state whose unscoped buffers
  hold `Gen.W5`.  The generated frame projects that final valuation at the seven argument arrays; here the same launch
  is read at the result array `main_v19` as well, so the value proof can open `Gen.W5` there.
-/
import proofs.«151920_j3161095930112_2_alg».proof.Proof.Gen.KernelIdeal.Frame

set_option maxRecDepth 16384

noncomputable section

namespace Cert.Attn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents `Gen.W5` and the seven argument arrays as launched. -/
theorem run_result : θ_run defs (onTc (τ := τ) (main (F := F))) ⟨m, fun _ => 0, ρ⟩ (fun r => ∀ c : Dev nD,
      r.2.mem ((c.tc : Thread nD τ).loc main_v19) = W5 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v19 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Attn.Run

end
-- ==== Proof.BodyRow.lean ====
/-
  A [1, 1024] row's minimum and maximum, and a [1, 1] value spread over the row, read at the ideal values.

  A minimum (maximum) reduction over axis 1 of a [1, 1024] array, from the +∞ (−∞) word, is at its one index the
  fold of `min` (`max`) from that word's value over the 1024 entries of the row: the row's `rowMin` (`rowMax`).
-/
import proofs.«151920_j3161095930112_2_alg».proof.Proof.Gen.KernelIdeal.Skeleton
import proofs.«151920_j3161095930112_2_alg».proof.Proof.Spec
import proofs.«151920_j3161095930112_2_alg».proof.Proof.LibKeepdims
import Idealize.ShloMosaic.Lib.ValueIdx
import Idealize.ShloMosaic.PureOps.Ideal.Laws

noncomputable section

namespace Cert.Attn.Body

open Idealize.ShloMosaic Idealize.ShloMosaic.ValueIdx Cert.KernelIdeal Cert.KernelIdeal.Gen

/-- A float minimum reduction over one axis, at the ideal values: the fold of `min` from the accumulator's value
    over that axis's coordinates (the companion of the library's statement for the maximum). -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum of a [1, 1024] row from the +∞ word is the row's `rowMin`. -/
theorem row_min_apply (x : FVec Ideal S1x1024 .f32) (h : S1x1024.Reduces [1] S1) (hφ : FKind.Formats .f32)
    (hacc : (0x7F800000#32 : BitVec 32) = 0x7F800000#32) :
    multiReduction .minimumf [1] S1 x 0x7F800000#32 h hφ hacc (ix1 (0 : Fin 1))
      = rowMin (fun q => x (ix2 (0 : Fin 1) q)) :=
  (multiReduction_minimumf_single x 0x7F800000#32 h hφ hacc (ix1 (0 : Fin 1))).trans
    (congrArg (fun f : Fin 1024 → EReal => (Finset.univ : Finset (Fin 1024)).fold min (Ideal.ofBits .f32 0x7F800000#32) f)
      (funext fun q => congrArg x (Cert.LibKeepdims.lift_row h (0 : Fin 1) q)))

/-- The maximum of a [1, 1024] row from the −∞ word is the row's `rowMax`. -/
theorem row_max_apply (x : FVec Ideal S1x1024 .f32) (h : S1x1024.Reduces [1] S1) (hφ : FKind.Formats .f32)
    (hacc : (0xFF800000#32 : BitVec 32) = 0xFF800000#32) :
    multiReduction .maximumf [1] S1 x 0xFF800000#32 h hφ hacc (ix1 (0 : Fin 1))
      = rowMax (fun q => x (ix2 (0 : Fin 1) q)) :=
  (Ideal.multiReduction_maximumf_single x 0xFF800000#32 h hφ hacc (ix1 (0 : Fin 1))).trans
    (congrArg (fun f : Fin 1024 → EReal => (Finset.univ : Finset (Fin 1024)).fold max (Ideal.ofBits .f32 0xFF800000#32) f)
      (funext fun q => congrArg x (Cert.LibKeepdims.lift_row h (0 : Fin 1) q)))

end Cert.Attn.Body

end
-- ==== Proof.BodyGate.lean ====
/-
  The second kernel body's stored row, read at an index at the ideal values.

  The body loads a block `x` of shape [1, 1024, 512], a row `v` of shape [1, 1, 512] and a value `s` of shape
  [1, 1, 1]. It forms the [1, 1024] row `(v · xᵀ) * K + s * K` with `K` one f32 word, the product taken into a
  zero accumulator, and then normalises the row: it subtracts the row's minimum, divides by the difference of
  the row's maximum and minimum, subtracts a second word, divides by a third and applies the logistic function.
  At the ideal values the product's entry at pixel `q` is `∑ c, v (0, 0, c) * x (0, q, c)`, the two reductions
  are the row's `rowMin` and `rowMax`, and the normalisation is `gate`.
-/
import proofs.«151920_j3161095930112_2_alg».proof.Proof.Gen.KernelIdeal.Skeleton
import proofs.«151920_j3161095930112_2_alg».proof.Proof.Spec
import proofs.«151920_j3161095930112_2_alg».proof.Proof.BodyDot
import proofs.«151920_j3161095930112_2_alg».proof.Proof.BodyRow
import proofs.«151920_j3161095930112_2_alg».proof.Proof.LibKeepdims
import Idealize.ShloMosaic.Lib.ValueLayout
import Idealize.ShloMosaic.Lib.Pipeline.Value
import Idealize.ShloMosaic.PureOps.Ideal.Laws

noncomputable section

namespace Cert.Attn.Body

open Idealize.ShloMosaic Idealize.ShloMosaic.ValueIdx Cert.KernelIdeal Cert.KernelIdeal.Gen

/-- The body's normalisation of a [1, 1024] row `x`, operation by operation: the minimum and the maximum over
    the row, each kept as a [1, 1] value and spread back over the row; `(x − min) / (max − min)`; minus one word,
    divided by another; the logistic function; a unit axis put in front. -/
def normRow (x : FVec Ideal S1x1024 .f32) : FVec Ideal S1x1x1024 .f32 :=
  have mn : FVec Ideal S1x1 .f32 :=
    shapeCast S1x1 (multiReduction .minimumf [1] S1 x 0x7F800000#32 reduces_S1x1024_S1 (.inl rfl) rfl) shapeCasts_S1_S1x1
  have mx : FVec Ideal S1x1 .f32 :=
    shapeCast S1x1 (multiReduction .maximumf [1] S1 x 0xFF800000#32 reduces_S1x1024_S1 (.inl rfl) rfl) shapeCasts_S1_S1x1
  have num : FVec Ideal S1x1024 .f32 := subf x (broadcastTo S1x1024 mn broadcasts_S1x1_S1x1024)
  have den : FVec Ideal S1x1024 .f32 := broadcastTo S1x1024 (subf mx mn) broadcasts_S1x1_S1x1024
  have shifted : FVec Ideal S1x1024 .f32 := subf (divf num den) (broadcast S1x1024 (Scalar.ofBits .f32 0x3F266666#32))
  have scaled : FVec Ideal S1x1024 .f32 := divf shifted (broadcast S1x1024 (Scalar.ofBits .f32 0x3E19999A#32))
  shapeCast S1x1x1024 (logistic scaled) shapeCasts_S1x1024_S1x1x1024

/-- The normalisation of a row, at pixel `p`, is `gate` of the row's entries. -/
theorem normRow_apply (x : FVec Ideal S1x1024 .f32) (p : Fin 1024) :
    normRow x (ix3 (0 : Fin 1) (0 : Fin 1) p) = gate (fun q => x (ix2 (0 : Fin 1) q)) p := by
  unfold normRow gate
  rw [shapeCast_ab_1ab_apply]
  show Ideal.logistic (Ideal.div (Ideal.div (x (ix2 (0 : Fin 1) p) - broadcastTo S1x1024 _ _ (ix2 (0 : Fin 1) p))
    (broadcastTo S1x1024 _ _ (ix2 (0 : Fin 1) p)) - Ideal.ofBits .f32 0x3F266666#32) (Ideal.ofBits .f32 0x3E19999A#32)) = _
  rw [Cert.LibKeepdims.broadcastTo_a1_ab_apply, Cert.LibKeepdims.broadcastTo_a1_ab_apply, subf_apply,
    shapeCast_a_1a_apply, shapeCast_a_1a_apply, row_min_apply, row_max_apply]

/-- The stored row at pixel `p`. -/
theorem k1_apply (v0 : Vec Ideal S1x1024x512 .f32) (v2 : Vec Ideal S1x1x512 .f32) (v4 : Vec Ideal S1x1x1 .f32)
    (p : Fin 1024) :
    k1_pay1 (F := Ideal) v0 v2 v4 (ix3 (0 : Fin 1) (0 : Fin 1) p)
      = Cert.Attn.gate (fun r : Fin 1024 =>
          (∑ c : Fin 512, v2 (ix3 (0 : Fin 1) (0 : Fin 1) c) * v0 (ix3 (0 : Fin 1) r c))
              * Ideal.ofBits .f32 0x36CEE116#32
            + v4 (ix3 (0 : Fin 1) (0 : Fin 1) (0 : Fin 1)) * Ideal.ofBits .f32 0x36CEE116#32) p := by
  unfold k1_pay1
  refine (normRow_apply _ p).trans ?_
  refine congrArg (fun r : Fin 1024 → EReal => gate r p) (funext fun q => ?_)
  rw [addf_apply, mulf_apply, matmul_1x512_1024x512_apply, broadcast_apply, Cert.LibKeepdims.broadcastTo_a1_ab_apply,
    mulf_apply, broadcast_apply, shapeCast_1ab_ab_apply]
  refine congrArg (fun t : EReal => t * Ideal.ofBits .f32 0x36CEE116#32
    + v4 (ix3 (0 : Fin 1) (0 : Fin 1) (0 : Fin 1)) * Ideal.ofBits .f32 0x36CEE116#32) (Finset.sum_congr rfl fun c _ => ?_)
  rw [shapeCast_1ab_ab_apply, shapeCast_1ab_ab_apply]

end Cert.Attn.Body

end
-- ==== Proof.KerReg1.lean ====
/-
  The second kernel's region and the closing reshape: the program's result.

  At grid point `t` (image `t`) the body contracts the image's residual convolution with the vector `v[t]`, scales by
  the printed constant, adds the scaled scalar `b[t]`, and passes the row of 1024 values through the min–max
  normalisation and the logistic function: the row `outKer … t`.  The eight blocks `[1,1,1024]` tile the output
  array `[8,1,1024]`, which the host reshapes to `[8,1024]`.
-/
import proofs.«151920_j3161095930112_2_alg».proof.Proof.KerMid
import proofs.«151920_j3161095930112_2_alg».proof.Proof.KerRun
import proofs.«151920_j3161095930112_2_alg».proof.Proof.BodyGate
import proofs.«151920_j3161095930112_2_alg».proof.Proof.Result

set_option maxRecDepth 16384

noncomputable section

namespace Cert.Attn.Reg1

open Cert.KernelIdeal Cert.KernelIdeal.Gen Cert.Attn Cert.Attn.Entry Cert.Attn.Reg0 Cert.Attn.Mid
open Idealize.ShloMosaic Idealize.ShloMosaic.TcCoe Idealize.SL.Sem Idealize.ShloMosaic.StableHlo Idealize.ShloMosaic.ValueIdx
open Idealize.ShloMosaic.Pipeline (Dat)

/-- One point's store, from what its blocks hold: the gate of the scaled contraction row. -/
theorem out3_point (x0 : Vec Ideal S1x1024x512 .f32) (x1 : Vec Ideal S1x1x512 .f32) (x2 : Vec Ideal S1x1x1 .f32)
    (U : Fin 1024 → Fin 512 → EReal) (Vv : Fin 512 → EReal) (b : EReal)
    (h0 : ∀ r k, x0 (ix3 (0 : Fin 1) r k) = U r k) (h1 : ∀ k, x1 (ix3 (0 : Fin 1) (0 : Fin 1) k) = Vv k)
    (h2 : x2 (ix3 (0 : Fin 1) (0 : Fin 1) (0 : Fin 1)) = b) (p : Fin 1024) :
    out1_3 (F := Ideal) x0 x1 x2 (ix3 (0 : Fin 1) (0 : Fin 1) p)
      = gate (fun r : Fin 1024 => (∑ k : Fin 512, Vv k * U r k) * Ideal.ofBits .f32 0x36CEE116#32 + b * Ideal.ofBits .f32 0x36CEE116#32) p := by
  unfold out1_3
  rw [View.canon_unit_zero hz3]
  simp only [View.ld_unit_zero (S := S1x1024x512) hz3, View.ld_unit_zero (S := S1x1x512) hz3, View.ld_unit_zero (S := S1x1x1) hz3]
  rw [Body.k1_apply]
  simp only [h0, h1, h2]

variable (m : (ℓ : Loc nD τ sig) → Buf (Elt Ideal) ℓ) (ρ : Dev nD → PrngReg)

/-- The second region's output array as one function of the arguments. -/
def G3 (a0 : T4) (a1 : T2) (a2 : T1) (a3 : T2) (a4 : T1) (a5 : T2) (a6 : T1) : S8x1x1024.Idx → EReal :=
  fun j => outKer a0 a1 a2 a3 a4 a5 a6 ⟨(j 0).val, (j 0).isLt⟩ ⟨(j 2).val, (j 2).isLt⟩

/-- What point `t` writes back is block `t` of `G3`. -/
theorem flushed3_eq (c : Dev nD) (t : Fin cfg1.N) :
    (dat1 (V3 m ρ) c).flushed 3 t = ((cfg1.win 3).blk t).view.read (Elt Ideal) (G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg1.win 3).cut (grid1.coords t) ((dat1 (V3 m ρ) c).after 3 t) = _
  rw [after1_3]
  funext y
  have hy0 : (y 0).val < 1 := (y 0).isLt
  have hy1 : (y 1).val < 1 := (y 1).isLt
  have hy2 : (y 2).val < 1024 := (y 2).isLt
  have ey : (cfg1.win 3).xinj (grid1.coords t) y = ix3 (0 : Fin 1) (0 : Fin 1) (⟨(y 2).val, hy2⟩ : Fin 1024) := by
    funext a; apply Fin.ext
    match a with
    | ⟨0, _⟩ => show (y 0).val = 0; omega
    | ⟨1, _⟩ => show (y 1).val = 0; omega
    | ⟨2, _⟩ => rfl
  have ee : ((cfg1.win 3).blk t).view.emb y = ix3 (img1 t) (0 : Fin 1) (⟨(y 2).val, hy2⟩ : Fin 1024) := by
    obtain ⟨-, -, -, -, -, -, -, -, -, e0, e1, e2⟩ := idx1 t
    funext a; apply Fin.ext
    match a with
    | ⟨0, _⟩ => show win1_3.index t (0 : Fin 3) * 1 + 1 * (y 0).val = t.val; omega
    | ⟨1, _⟩ => show win1_3.index t (1 : Fin 3) * 1 + 1 * (y 1).val = 0; omega
    | ⟨2, _⟩ => show win1_3.index t (2 : Fin 3) * 1024 + 1 * (y 2).val = (y 2).val; omega
  show out1_3 (iblk1 (V3 m ρ) c 0 t) (iblk1 (V3 m ρ) c 1 t) (iblk1 (V3 m ρ) c 2 t) ((cfg1.win 3).xinj (grid1.coords t) y)
    = G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg1.win 3).blk t).view.emb y)
  rw [ey, ee]
  refine (out3_point (iblk1 (V3 m ρ) c 0 t) (iblk1 (V3 m ρ) c 1 t) (iblk1 (V3 m ρ) c 2 t) _ _ _
    (blk1_0 m ρ c t) (blk1_1 m ρ c t) (blk1_2 m ρ c t) _).trans ?_
  rfl

theorem mem_blk3 (t : Fin cfg1.N) (i : S8x1x1024.Idx) :
    i ∈ ((cfg1.win 3).blk t).view.set ↔ ∀ a : Fin 3, win1_3.index t a * S1x1x1024.size a ≤ (i a).val
      ∧ (i a).val < win1_3.index t a * S1x1x1024.size a + S1x1x1024.size a := by
  show i ∈ ((View.whole main_v18).slice (win1_3.rect t)).set ↔ _
  rw [View.set_slice_whole, Rect.mem_set_unit]
  exact Iff.rfl

theorem cover3 (i : S8x1x1024.Idx) : ∃ t : Fin cfg1.N, (cfg1.win 3).flush t = true ∧ i ∈ ((cfg1.win 3).blk t).view.set := by
  have hi0 : (i 0).val < 8 := (i 0).isLt
  have hi1 : (i 1).val < 1 := (i 1).isLt
  have hi2 : (i 2).val < 1024 := (i 2).isLt
  refine ⟨pt1 ⟨(i 0).val, hi0⟩, flush1_3 _, ?_⟩
  rw [mem_blk3]
  obtain ⟨-, -, -, -, -, -, -, -, -, e0, e1, e2⟩ := idx1 (pt1 ⟨(i 0).val, hi0⟩)
  have e0' : win1_3.index (pt1 ⟨(i 0).val, hi0⟩) (0 : Fin 3) = (i 0).val := e0
  intro a
  match a with
  | ⟨0, _⟩ =>
    show win1_3.index (pt1 ⟨(i 0).val, hi0⟩) (0 : Fin 3) * 1 ≤ (i 0).val ∧ (i 0).val < win1_3.index (pt1 ⟨(i 0).val, hi0⟩) (0 : Fin 3) * 1 + 1
    omega
  | ⟨1, _⟩ =>
    show win1_3.index (pt1 ⟨(i 0).val, hi0⟩) (1 : Fin 3) * 1 ≤ (i 1).val ∧ (i 1).val < win1_3.index (pt1 ⟨(i 0).val, hi0⟩) (1 : Fin 3) * 1 + 1
    omega
  | ⟨2, _⟩ =>
    show win1_3.index (pt1 ⟨(i 0).val, hi0⟩) (2 : Fin 3) * 1024 ≤ (i 2).val ∧ (i 2).val < win1_3.index (pt1 ⟨(i 0).val, hi0⟩) (2 : Fin 3) * 1024 + 1024
    omega

/-- After the second region its output array is `G3`. -/
theorem final3 (c : Dev nD) : (dat1 (V3 m ρ) c).arrAt 3 cfg1.N = G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dat1 (V3 m ρ) c).arrAt_eq_of_cover 3 _ (fun t _ => flushed3_eq m ρ c t) cover3

/-- The program's result after the closing reshape. -/
theorem W5_v19 (c : Dev nD) : (W5 m ρ c (Proc.devRef .tc main_v19) : S8x1024.Idx → EReal) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : (W5 m ρ c (Proc.devRef .tc main_v19) : S8x1024.Idx → EReal)
      = shapeCast S8x1024 (W4 m ρ c (Proc.devRef .tc main_v18)) shapeCasts_S8x1x1024_S8x1024 := by
    show StableHlo.after hostOps2 (W4 m ρ c) (Proc.devRef .tc main_v19) = _
    after_results <;> rfl
  rw [e, show (W4 m ρ c (Proc.devRef .tc main_v18) : S8x1x1024.Idx → EReal) = G3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) from (W4_arr m ρ c 3).trans (final3 m ρ c)]
  funext j
  obtain ⟨i, p, rfl⟩ : ∃ (i : Fin 8) (p : Fin 1024), j = ix2 i p := ⟨j 0, j 1, eq_ix2 j⟩
  refine (shapeCast_apply _ shapeCasts_S8x1x1024_S8x1024 (ix2 i p) (ix3 i (0 : Fin 1) p) ?_).trans ?_
  · rw [Shape.rowMajor_val_three, Shape.rowMajor_val_two]
    show (i.val * 1 + 0) * 1024 + p.val = i.val * 1024 + p.val
    omega
  rfl

/-- THE KERNEL PROGRAM'S RUN: every weakly fair execution terminates, nothing faulting, with the result array at
    `resultOf` of the argument arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v19) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W5_v19 m ρ c), (h c).2⟩) (Cert.Attn.Run.run_result m ρ)

end Cert.Attn.Reg1

end
-- ==== Proof.lean ====
/-
  The five claims of this certificate, assembled.

  The kernel program computes, for each of 8 images of 1024 pixels and 512 channels: the residual 1×1 convolution
  `xr = x·cwᵀ + cb + x`; the key projection `k = xr·kwᵀ + kb` summed over each image's pixels; the difference between
  the total of those sums and the image's own; that difference folded through the query weights and bias; its
  contraction with `xr`, scaled by one f32 constant; and, per image, the min–max normalisation of the 1024 values,
  shifted by 0.65, divided by 0.15 and passed through the logistic function.
  The reference forms the query and key projections of all 8192 pixels, their full 8192 × 8192 affinity scaled by another
  f32 constant, the block sums over each key image, the sum over all key images minus the own image's block, the quotient
  by 7168, and the same normalisation and logistic function.

  At the ideal instance the two masked means are one real array `W` times two DIFFERENT positive constants (the kernel's
  constant is the f32 rounding of the reference's scale over 7168): both sums are `Σ_o q[i,p,o]·(Σ_j Σ_r k[j,r,o] − Σ_r k[i,r,o])`
  by distributivity over the reals, which is where the precondition (every input entry finite) is used.  The min–max
  normalisation `(r − min r) / (max r − min r)` is invariant under a positive scale of the row — also where the row is
  constant and the quotient is `0 / 0` on both sides — so the two results agree entry by entry.

  The parts: the kernel program's run with its result named and read through both regions and the host operations
  around them (Run, Host, Entry, Reg0, Mid, Reg1 modules); the two kernel bodies' arithmetic at an index (Body modules); the
  reference's operations read at an index (Ref modules); the algebra over the reals (Alg modules); finiteness from the
  precondition (Finite); and the claims (Claims).  The three frames are the generated frames and the reference's run; the
  idealization rewrote nothing, so its conjunct is trivial.
-/
import proofs.«151920_j3161095930112_2_alg».proof.Defs
import proofs.«151920_j3161095930112_2_alg».proof.Proof.Gen.Kernel
import proofs.«151920_j3161095930112_2_alg».proof.Proof.Gen.Kernel.Skeleton
import proofs.«151920_j3161095930112_2_alg».proof.Proof.Gen.Kernel.Launch
import proofs.«151920_j3161095930112_2_alg».proof.Proof.Gen.Kernel.Points
import proofs.«151920_j3161095930112_2_alg».proof.Proof.Gen.Kernel.Frame
import proofs.«151920_j3161095930112_2_alg».proof.Proof.Gen.KernelIdeal
import proofs.«151920_j3161095930112_2_alg».proof.Proof.Gen.KernelIdeal.Skeleton
import proofs.«151920_j3161095930112_2_alg».proof.Proof.Gen.KernelIdeal.Launch
import proofs.«151920_j3161095930112_2_alg».proof.Proof.Gen.KernelIdeal.Points
import proofs.«151920_j3161095930112_2_alg».proof.Proof.Gen.KernelIdeal.Frame
import proofs.«151920_j3161095930112_2_alg».proof.Proof.Gen.ReferenceIdeal
import proofs.«151920_j3161095930112_2_alg».proof.Proof.Gen.Pre_finite_inputs
import proofs.«151920_j3161095930112_2_alg».proof.Proof.Gen.ReferenceIdeal.Read
import proofs.«151920_j3161095930112_2_alg».proof.Proof.Claims
import proofs.«151920_j3161095930112_2_alg».proof.Proof.KerReg1
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic_of fun m ρ => Cert.Attn.Reg1.run m ρ⟩

end Cert.Proof

end
